-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg5 : FVec F S3x128 .f32) (main_arg6 : FVec F S3x128x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128x128 .f32 := Host.absf main_arg6
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S128x128 .f32) (main_arg3 : FVec F S128 .f32) (main_arg4 : FVec F S3x128x128 .f32) (main_arg5 : FVec F S3x128 .f32) (main_arg6 : FVec F S3x128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S1x800000 : Shape := ⟨2, ![1, 800000]⟩
abbrev S800000 : Shape := ⟨1, ![800000]⟩
abbrev S2000x128 : Shape := ⟨2, ![2000, 128]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩

abbrev nBuf : Space → Nat
  | .hbm => 72
  | .vmem => 33
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S3x128x128, .f32⟩
  | .hbm, ⟨5, _⟩ => ⟨S3x128, .f32⟩
  | .hbm, ⟨6, _⟩ => ⟨S3x128x128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000x128, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S1x128x128, .f32⟩
  | .hbm, ⟨26, _⟩ => ⟨S128x128, .f32⟩
  | .hbm, ⟨27, _⟩ => ⟨S1x128, .f32⟩
  | .hbm, ⟨28, _⟩ => ⟨S128, .f32⟩
  | .hbm, ⟨29, _⟩ => ⟨S1x128x128, .f32⟩
  | .hbm, ⟨30, _⟩ => ⟨S128x128, .f32⟩
  | .hbm, ⟨31, _⟩ => ⟨S50000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S_, .f32⟩
  | .hbm, ⟨42, _⟩ => ⟨S50000x128, .f32⟩
  | .hbm, ⟨43, _⟩ => ⟨S800000x1, .i32⟩
  | .hbm, ⟨44, _⟩ => ⟨S50000x128, .f32⟩
  | .hbm, ⟨45, _⟩ => ⟨S1x128x128, .f32⟩
  | .hbm, ⟨46, _⟩ => ⟨S128x128, .f32⟩
  | .hbm, ⟨47, _⟩ => ⟨S1x128, .f32⟩
  | .hbm, ⟨48, _⟩ => ⟨S128, .f32⟩
  | .hbm, ⟨49, _⟩ => ⟨S1x128x128, .f32⟩
  | .hbm, ⟨50, _⟩ => ⟨S128x128, .f32⟩
  | .hbm, ⟨51, _⟩ => ⟨S50000x128, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S1x128x128, .f32⟩
  | .hbm, ⟨66, _⟩ => ⟨S128x128, .f32⟩
  | .hbm, ⟨67, _⟩ => ⟨S1x128, .f32⟩
  | .hbm, ⟨68, _⟩ => ⟨S128, .f32⟩
  | .hbm, ⟨69, _⟩ => ⟨S1x128x128, .f32⟩
  | .hbm, ⟨70, _⟩ => ⟨S128x128, .f32⟩
  | .hbm, ⟨71, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S128x128, .f32⟩
  | .local _ .vmem, ⟨11, _⟩ => ⟨S128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S128x128, .f32⟩
  | .local _ .vmem, ⟨20, _⟩ => ⟨S128, .f32⟩
  | .local _ .vmem, ⟨21, _⟩ => ⟨S128x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S128x128, .f32⟩
  | .local _ .vmem, ⟨29, _⟩ => ⟨S128, .f32⟩
  | .local _ .vmem, ⟨30, _⟩ => ⟨S128x128, .f32⟩
  | .local _ .vmem, ⟨31, _⟩ => ⟨S2000x128, .f32⟩
  | .local _ .vmem, ⟨32, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_1 : Ref sig .tc := ⟨.hbm, 32, rfl⟩
abbrev main_v22 : Ref sig .tc := ⟨.hbm, 33, rfl⟩
abbrev main_v23 : Ref sig .tc := ⟨.hbm, 34, rfl⟩
abbrev main_c_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_4 : Ref sig .tc := ⟨.hbm, 52, rfl⟩
abbrev main_v39 : Ref sig .tc := ⟨.hbm, 53, rfl⟩
abbrev main_v40 : Ref sig .tc := ⟨.hbm, 54, rfl⟩
abbrev main_c_5 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S2000x128_S2000x128 : S2000x128.ShapeCasts S2000x128
  shapeCasts_S128x128_S128x128 : S128x128.ShapeCasts S128x128
  shapeCasts_S128_S128 : S128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v21) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v33) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v38) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v38) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v50) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v52) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v54) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v55) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S1x800000 : Shape := ⟨2, ![1, 800000]⟩
abbrev S800000 : Shape := ⟨1, ![800000]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩

abbrev nBuf : Space → Nat
  | .hbm => 102
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S3x128x128, .f32⟩
  | .hbm, ⟨5, _⟩ => ⟨S3x128, .f32⟩
  | .hbm, ⟨6, _⟩ => ⟨S3x128x128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000x128, .f32⟩
  | .hbm, ⟨12, _⟩ => ⟨S1x128, .f32⟩
  | .hbm, ⟨13, _⟩ => ⟨S50000x128, .f32⟩
  | .hbm, ⟨14, _⟩ => ⟨S50000x128, .f32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S1x128x128, .f32⟩
  | .hbm, ⟨29, _⟩ => ⟨S128x128, .f32⟩
  | .hbm, ⟨30, _⟩ => ⟨S50000x128, .f32⟩
  | .hbm, ⟨31, _⟩ => ⟨S1x128, .f32⟩
  | .hbm, ⟨32, _⟩ => ⟨S128, .f32⟩
  | .hbm, ⟨33, _⟩ => ⟨S1x128, .f32⟩
  | .hbm, ⟨34, _⟩ => ⟨S50000x128, .f32⟩
  | .hbm, ⟨35, _⟩ => ⟨S50000x128, .f32⟩
  | .hbm, ⟨36, _⟩ => ⟨S1x128x128, .f32⟩
  | .hbm, ⟨37, _⟩ => ⟨S128x128, .f32⟩
  | .hbm, ⟨38, _⟩ => ⟨S50000x128, .f32⟩
  | .hbm, ⟨39, _⟩ => ⟨S50000x128, .f32⟩
  | .hbm, ⟨40, _⟩ => ⟨S_, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S1x128x128, .f32⟩
  | .hbm, ⟨58, _⟩ => ⟨S128x128, .f32⟩
  | .hbm, ⟨59, _⟩ => ⟨S50000x128, .f32⟩
  | .hbm, ⟨60, _⟩ => ⟨S1x128, .f32⟩
  | .hbm, ⟨61, _⟩ => ⟨S128, .f32⟩
  | .hbm, ⟨62, _⟩ => ⟨S1x128, .f32⟩
  | .hbm, ⟨63, _⟩ => ⟨S50000x128, .f32⟩
  | .hbm, ⟨64, _⟩ => ⟨S50000x128, .f32⟩
  | .hbm, ⟨65, _⟩ => ⟨S1x128x128, .f32⟩
  | .hbm, ⟨66, _⟩ => ⟨S128x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S800000x128, .f32⟩
  | .hbm, ⟨82, _⟩ => ⟨S_, .f32⟩
  | .hbm, ⟨83, _⟩ => ⟨S50000x128, .f32⟩
  | .hbm, ⟨84, _⟩ => ⟨S800000x1, .i32⟩
  | .hbm, ⟨85, _⟩ => ⟨S50000x128, .f32⟩
  | .hbm, ⟨86, _⟩ => ⟨S1x128x128, .f32⟩
  | .hbm, ⟨87, _⟩ => ⟨S128x128, .f32⟩
  | .hbm, ⟨88, _⟩ => ⟨S50000x128, .f32⟩
  | .hbm, ⟨89, _⟩ => ⟨S1x128, .f32⟩
  | .hbm, ⟨90, _⟩ => ⟨S128, .f32⟩
  | .hbm, ⟨91, _⟩ => ⟨S1x128, .f32⟩
  | .hbm, ⟨92, _⟩ => ⟨S50000x128, .f32⟩
  | .hbm, ⟨93, _⟩ => ⟨S50000x128, .f32⟩
  | .hbm, ⟨94, _⟩ => ⟨S1x128x128, .f32⟩
  | .hbm, ⟨95, _⟩ => ⟨S128x128, .f32⟩
  | .hbm, ⟨96, _⟩ => ⟨S50000x128, .f32⟩
  | .hbm, ⟨97, _⟩ => ⟨S50000x128, .f32⟩
  | .hbm, ⟨98, _⟩ => ⟨S_, .f32⟩
  | .hbm, ⟨99, _⟩ => ⟨S50000x128, .f32⟩
  | .hbm, ⟨100, _⟩ => ⟨S50000x128, .f32⟩
  | .hbm, ⟨101, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_call0_cst : Ref sig .tc := ⟨.hbm, 40, rfl⟩
abbrev main_call0_v0 : Ref sig .tc := ⟨.hbm, 41, rfl⟩
abbrev main_v30 : Ref sig .tc := ⟨.hbm, 42, rfl⟩
abbrev main_v31 : Ref sig .tc := ⟨.hbm, 43, rfl⟩
abbrev main_c_1 : Ref sig .tc := ⟨.hbm, 44, rfl⟩
abbrev main_v32 : Ref sig .tc := ⟨.hbm, 45, rfl⟩
abbrev main_v33 : Ref sig .tc := ⟨.hbm, 46, rfl⟩
abbrev main_c_2 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_3 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_call1_cst : Ref sig .tc := ⟨.hbm, 69, rfl⟩
abbrev main_call1_v0 : Ref sig .tc := ⟨.hbm, 70, rfl⟩
abbrev main_v54 : Ref sig .tc := ⟨.hbm, 71, rfl⟩
abbrev main_v55 : Ref sig .tc := ⟨.hbm, 72, rfl⟩
abbrev main_c_4 : Ref sig .tc := ⟨.hbm, 73, rfl⟩
abbrev main_v56 : Ref sig .tc := ⟨.hbm, 74, rfl⟩
abbrev main_v57 : Ref sig .tc := ⟨.hbm, 75, rfl⟩
abbrev main_c_5 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_6 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_call2_cst : Ref sig .tc := ⟨.hbm, 98, rfl⟩
abbrev main_call2_v0 : Ref sig .tc := ⟨.hbm, 99, rfl⟩
abbrev main_v78 : Ref sig .tc := ⟨.hbm, 100, rfl⟩
abbrev main_v79 : Ref sig .tc := ⟨.hbm, 101, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KernelRun.lean ====
/-
  The idealized kernel's run with its RESULT named.

  The program is four kernel regions among stretches of host operations. Its frame run ends in a state where
  every buffer that outlives the regions holds the contents the last boundary's fold `W8` gives it; the frame
  claim keeps of this only that the seven arguments are unchanged. Here the same run is stated keeping, besides,
  what the result buffer (the fourth region's output array) holds: `W8` at that buffer. What that is as a
  function of the arguments is the business of the value modules.
-/
import proofs.«141604_j25125558682021_1_alg».proof.Proof.PatchedKernelIdealFrame

set_option maxRecDepth 16384

noncomputable section

namespace Cert.GraphConv.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes unfolding
-- plain definitions in a metavariable's type
set_option backward.isDefEq.respectTransparency.types false in
/-- Every weakly fair execution of the idealized kernel's @main terminates, nothing faulting, with the result
    buffer at the last boundary's contents and the arguments as launched. -/
theorem run_result : θ_run defs (onTc (τ := τ) (main (F := F))) ⟨m, fun _ => 0, ρ⟩ (fun r => ∀ c : Dev nD,
      r.2.mem ((c.tc : Thread nD τ).loc main_v55) = W8 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v55 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.GraphConv.Run

end
-- ==== Proof.Stable.lean ====
import proofs.«141604_j25125558682021_1_alg».proof.Proof.PatchedKernelIdealFrame
import Idealize.ShloMosaic.Lib.StableHlo.Run

/-! # What the host stretches and the regions leave untouched

The program is four stretches of host operations alternating with four pipelined regions.  A region changes only
the arrays its windows name; a host operation changes only its result buffer.  So a buffer that is neither, from
some boundary on, still holds what it held at that boundary.  This module records those facts for the buffers the
later stages read: the two index vectors (rows 0 and 1 of the edge table, flattened), the three stacked parameter
arrays, and each layer's output across the host stretch that follows it.  It also reads the contents at the first
region's entry back to the launch memory. -/

noncomputable section

namespace Cert.GraphConv.Stable

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- A host stretch keeps the buffer of a reference `r` that none of its operations writes: the stretch is a literal
    list, each operation writes exactly its result buffer, and `r` differs from every one of those results as a
    reference (decided), hence as a device buffer. -/
macro "host_keeps " ops:ident r:ident : tactic => `(tactic|
  exact StableHlo.after_of_forall_not_mem (b := Proc.devRef .tc $r) _ _ (List.forall_iff_forall_mem.mp (by
    simp only [$ops:ident, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))))

/-! ## The buffers every layer reads: unchanged from the first region's entry on

None of these five is a window array of any region, and no host operation after the first stretch has one of them
as its result.  Each boundary is one step from the previous one: a region step (the buffer is not among the
region's arrays) or a host step (`host_keeps`). -/

/-! ### `main_v1`: row 0 of the edge table, flattened (the gather indices) -/

theorem keep2_v1 (c : Dev nD) : W2 m ρ c (Proc.devRef .tc main_v1) = W1 m ρ c (Proc.devRef .tc main_v1) :=
  W2_of_ne m ρ c main_v1 (by decide)
theorem keep3_v1 (c : Dev nD) : W3 m ρ c (Proc.devRef .tc main_v1) = W1 m ρ c (Proc.devRef .tc main_v1) :=
  (show W3 m ρ c (Proc.devRef .tc main_v1) = W2 m ρ c (Proc.devRef .tc main_v1) by host_keeps hostOps1 main_v1).trans (keep2_v1 m ρ c)
theorem keep4_v1 (c : Dev nD) : W4 m ρ c (Proc.devRef .tc main_v1) = W1 m ρ c (Proc.devRef .tc main_v1) :=
  (W4_of_ne m ρ c main_v1 (by decide)).trans (keep3_v1 m ρ c)
theorem keep5_v1 (c : Dev nD) : W5 m ρ c (Proc.devRef .tc main_v1) = W1 m ρ c (Proc.devRef .tc main_v1) :=
  (show W5 m ρ c (Proc.devRef .tc main_v1) = W4 m ρ c (Proc.devRef .tc main_v1) by host_keeps hostOps2 main_v1).trans (keep4_v1 m ρ c)
theorem keep6_v1 (c : Dev nD) : W6 m ρ c (Proc.devRef .tc main_v1) = W1 m ρ c (Proc.devRef .tc main_v1) :=
  (W6_of_ne m ρ c main_v1 (by decide)).trans (keep5_v1 m ρ c)
theorem keep7_v1 (c : Dev nD) : W7 m ρ c (Proc.devRef .tc main_v1) = W1 m ρ c (Proc.devRef .tc main_v1) :=
  (show W7 m ρ c (Proc.devRef .tc main_v1) = W6 m ρ c (Proc.devRef .tc main_v1) by host_keeps hostOps3 main_v1).trans (keep6_v1 m ρ c)

/-! ### `main_v3`: row 1 of the edge table, flattened (the scatter indices) -/

theorem keep2_v3 (c : Dev nD) : W2 m ρ c (Proc.devRef .tc main_v3) = W1 m ρ c (Proc.devRef .tc main_v3) :=
  W2_of_ne m ρ c main_v3 (by decide)
theorem keep3_v3 (c : Dev nD) : W3 m ρ c (Proc.devRef .tc main_v3) = W1 m ρ c (Proc.devRef .tc main_v3) :=
  (show W3 m ρ c (Proc.devRef .tc main_v3) = W2 m ρ c (Proc.devRef .tc main_v3) by host_keeps hostOps1 main_v3).trans (keep2_v3 m ρ c)
theorem keep4_v3 (c : Dev nD) : W4 m ρ c (Proc.devRef .tc main_v3) = W1 m ρ c (Proc.devRef .tc main_v3) :=
  (W4_of_ne m ρ c main_v3 (by decide)).trans (keep3_v3 m ρ c)
theorem keep5_v3 (c : Dev nD) : W5 m ρ c (Proc.devRef .tc main_v3) = W1 m ρ c (Proc.devRef .tc main_v3) :=
  (show W5 m ρ c (Proc.devRef .tc main_v3) = W4 m ρ c (Proc.devRef .tc main_v3) by host_keeps hostOps2 main_v3).trans (keep4_v3 m ρ c)
theorem keep6_v3 (c : Dev nD) : W6 m ρ c (Proc.devRef .tc main_v3) = W1 m ρ c (Proc.devRef .tc main_v3) :=
  (W6_of_ne m ρ c main_v3 (by decide)).trans (keep5_v3 m ρ c)
theorem keep7_v3 (c : Dev nD) : W7 m ρ c (Proc.devRef .tc main_v3) = W1 m ρ c (Proc.devRef .tc main_v3) :=
  (show W7 m ρ c (Proc.devRef .tc main_v3) = W6 m ρ c (Proc.devRef .tc main_v3) by host_keeps hostOps3 main_v3).trans (keep6_v3 m ρ c)

/-! ### `main_arg4`: the three layers' aggregation weights, stacked -/

theorem keep2_arg4 (c : Dev nD) : W2 m ρ c (Proc.devRef .tc main_arg4) = W1 m ρ c (Proc.devRef .tc main_arg4) :=
  W2_of_ne m ρ c main_arg4 (by decide)
theorem keep3_arg4 (c : Dev nD) : W3 m ρ c (Proc.devRef .tc main_arg4) = W1 m ρ c (Proc.devRef .tc main_arg4) :=
  (show W3 m ρ c (Proc.devRef .tc main_arg4) = W2 m ρ c (Proc.devRef .tc main_arg4) by host_keeps hostOps1 main_arg4).trans (keep2_arg4 m ρ c)
theorem keep4_arg4 (c : Dev nD) : W4 m ρ c (Proc.devRef .tc main_arg4) = W1 m ρ c (Proc.devRef .tc main_arg4) :=
  (W4_of_ne m ρ c main_arg4 (by decide)).trans (keep3_arg4 m ρ c)
theorem keep5_arg4 (c : Dev nD) : W5 m ρ c (Proc.devRef .tc main_arg4) = W1 m ρ c (Proc.devRef .tc main_arg4) :=
  (show W5 m ρ c (Proc.devRef .tc main_arg4) = W4 m ρ c (Proc.devRef .tc main_arg4) by host_keeps hostOps2 main_arg4).trans (keep4_arg4 m ρ c)
theorem keep6_arg4 (c : Dev nD) : W6 m ρ c (Proc.devRef .tc main_arg4) = W1 m ρ c (Proc.devRef .tc main_arg4) :=
  (W6_of_ne m ρ c main_arg4 (by decide)).trans (keep5_arg4 m ρ c)
theorem keep7_arg4 (c : Dev nD) : W7 m ρ c (Proc.devRef .tc main_arg4) = W1 m ρ c (Proc.devRef .tc main_arg4) :=
  (show W7 m ρ c (Proc.devRef .tc main_arg4) = W6 m ρ c (Proc.devRef .tc main_arg4) by host_keeps hostOps3 main_arg4).trans (keep6_arg4 m ρ c)

/-! ### `main_arg5`: the three layers' biases, stacked -/

theorem keep2_arg5 (c : Dev nD) : W2 m ρ c (Proc.devRef .tc main_arg5) = W1 m ρ c (Proc.devRef .tc main_arg5) :=
  W2_of_ne m ρ c main_arg5 (by decide)
theorem keep3_arg5 (c : Dev nD) : W3 m ρ c (Proc.devRef .tc main_arg5) = W1 m ρ c (Proc.devRef .tc main_arg5) :=
  (show W3 m ρ c (Proc.devRef .tc main_arg5) = W2 m ρ c (Proc.devRef .tc main_arg5) by host_keeps hostOps1 main_arg5).trans (keep2_arg5 m ρ c)
theorem keep4_arg5 (c : Dev nD) : W4 m ρ c (Proc.devRef .tc main_arg5) = W1 m ρ c (Proc.devRef .tc main_arg5) :=
  (W4_of_ne m ρ c main_arg5 (by decide)).trans (keep3_arg5 m ρ c)
theorem keep5_arg5 (c : Dev nD) : W5 m ρ c (Proc.devRef .tc main_arg5) = W1 m ρ c (Proc.devRef .tc main_arg5) :=
  (show W5 m ρ c (Proc.devRef .tc main_arg5) = W4 m ρ c (Proc.devRef .tc main_arg5) by host_keeps hostOps2 main_arg5).trans (keep4_arg5 m ρ c)
theorem keep6_arg5 (c : Dev nD) : W6 m ρ c (Proc.devRef .tc main_arg5) = W1 m ρ c (Proc.devRef .tc main_arg5) :=
  (W6_of_ne m ρ c main_arg5 (by decide)).trans (keep5_arg5 m ρ c)
theorem keep7_arg5 (c : Dev nD) : W7 m ρ c (Proc.devRef .tc main_arg5) = W1 m ρ c (Proc.devRef .tc main_arg5) :=
  (show W7 m ρ c (Proc.devRef .tc main_arg5) = W6 m ρ c (Proc.devRef .tc main_arg5) by host_keeps hostOps3 main_arg5).trans (keep6_arg5 m ρ c)

/-! ### `main_arg6`: the three layers' self weights, stacked -/

theorem keep2_arg6 (c : Dev nD) : W2 m ρ c (Proc.devRef .tc main_arg6) = W1 m ρ c (Proc.devRef .tc main_arg6) :=
  W2_of_ne m ρ c main_arg6 (by decide)
theorem keep3_arg6 (c : Dev nD) : W3 m ρ c (Proc.devRef .tc main_arg6) = W1 m ρ c (Proc.devRef .tc main_arg6) :=
  (show W3 m ρ c (Proc.devRef .tc main_arg6) = W2 m ρ c (Proc.devRef .tc main_arg6) by host_keeps hostOps1 main_arg6).trans (keep2_arg6 m ρ c)
theorem keep4_arg6 (c : Dev nD) : W4 m ρ c (Proc.devRef .tc main_arg6) = W1 m ρ c (Proc.devRef .tc main_arg6) :=
  (W4_of_ne m ρ c main_arg6 (by decide)).trans (keep3_arg6 m ρ c)
theorem keep5_arg6 (c : Dev nD) : W5 m ρ c (Proc.devRef .tc main_arg6) = W1 m ρ c (Proc.devRef .tc main_arg6) :=
  (show W5 m ρ c (Proc.devRef .tc main_arg6) = W4 m ρ c (Proc.devRef .tc main_arg6) by host_keeps hostOps2 main_arg6).trans (keep4_arg6 m ρ c)
theorem keep6_arg6 (c : Dev nD) : W6 m ρ c (Proc.devRef .tc main_arg6) = W1 m ρ c (Proc.devRef .tc main_arg6) :=
  (W6_of_ne m ρ c main_arg6 (by decide)).trans (keep5_arg6 m ρ c)
theorem keep7_arg6 (c : Dev nD) : W7 m ρ c (Proc.devRef .tc main_arg6) = W1 m ρ c (Proc.devRef .tc main_arg6) :=
  (show W7 m ρ c (Proc.devRef .tc main_arg6) = W6 m ρ c (Proc.devRef .tc main_arg6) by host_keeps hostOps3 main_arg6).trans (keep6_arg6 m ρ c)

/-! ## The first region's entry, read back to the launch memory

The first stretch only slices the edge table into its two rows and flattens each; it writes none of the
arguments, so an argument's buffer at the first region's entry is the launch memory's. -/

theorem W1_arg0 (c : Dev nD) : W1 m ρ c (Proc.devRef .tc main_arg0) = m ((c : Thread nD τ).loc main_arg0) :=
  (show W1 m ρ c (Proc.devRef .tc main_arg0) = W0 m ρ c (Proc.devRef .tc main_arg0) by host_keeps hostOps0 main_arg0).trans rfl
theorem W1_arg2 (c : Dev nD) : W1 m ρ c (Proc.devRef .tc main_arg2) = m ((c : Thread nD τ).loc main_arg2) :=
  (show W1 m ρ c (Proc.devRef .tc main_arg2) = W0 m ρ c (Proc.devRef .tc main_arg2) by host_keeps hostOps0 main_arg2).trans rfl
theorem W1_arg3 (c : Dev nD) : W1 m ρ c (Proc.devRef .tc main_arg3) = m ((c : Thread nD τ).loc main_arg3) :=
  (show W1 m ρ c (Proc.devRef .tc main_arg3) = W0 m ρ c (Proc.devRef .tc main_arg3) by host_keeps hostOps0 main_arg3).trans rfl
theorem W1_arg4 (c : Dev nD) : W1 m ρ c (Proc.devRef .tc main_arg4) = m ((c : Thread nD τ).loc main_arg4) :=
  (show W1 m ρ c (Proc.devRef .tc main_arg4) = W0 m ρ c (Proc.devRef .tc main_arg4) by host_keeps hostOps0 main_arg4).trans rfl
theorem W1_arg5 (c : Dev nD) : W1 m ρ c (Proc.devRef .tc main_arg5) = m ((c : Thread nD τ).loc main_arg5) :=
  (show W1 m ρ c (Proc.devRef .tc main_arg5) = W0 m ρ c (Proc.devRef .tc main_arg5) by host_keeps hostOps0 main_arg5).trans rfl
theorem W1_arg6 (c : Dev nD) : W1 m ρ c (Proc.devRef .tc main_arg6) = m ((c : Thread nD τ).loc main_arg6) :=
  (show W1 m ρ c (Proc.devRef .tc main_arg6) = W0 m ρ c (Proc.devRef .tc main_arg6) by host_keeps hostOps0 main_arg6).trans rfl

/-- The gather indices: row 0 of the launch edge table (a `1 × 800000` slice at offset `(0, 0)`), flattened. -/
theorem W1_v1 (c : Dev nD) : W1 m ρ c (Proc.devRef .tc main_v1)
    = shapeCast _ (extractStridedSlice S1x800000 ![0, 0] (m ((c : Thread nD τ).loc main_arg1)) slices_S2x800000_S1x800000_0_0)
        shapeCasts_S1x800000_S800000 := by
  show StableHlo.after hostOps0 _ (Proc.devRef .tc main_v1) = _
  after_results
  rfl

/-- The scatter indices: row 1 of the launch edge table (the slice at offset `(1, 0)`), flattened. -/
theorem W1_v3 (c : Dev nD) : W1 m ρ c (Proc.devRef .tc main_v3)
    = shapeCast _ (extractStridedSlice S1x800000 ![1, 0] (m ((c : Thread nD τ).loc main_arg1)) slices_S2x800000_S1x800000_1_0)
        shapeCasts_S1x800000_S800000 := by
  show StableHlo.after hostOps0 _ (Proc.devRef .tc main_v3) = _
  after_results
  rfl

/-! ## Each layer's input across the host stretch that follows the region producing it

The stretch between two regions reads the previous region's output (the gather's operand) but writes only its own
fresh results, so the output reaches the next region's entry as the region left it. -/

theorem W3_v4 (c : Dev nD) : W3 m ρ c (Proc.devRef .tc main_v4) = W2 m ρ c (Proc.devRef .tc main_v4) := by
  host_keeps hostOps1 main_v4
theorem W5_v21 (c : Dev nD) : W5 m ρ c (Proc.devRef .tc main_v21) = W4 m ρ c (Proc.devRef .tc main_v21) := by
  host_keeps hostOps2 main_v21
theorem W7_v38 (c : Dev nD) : W7 m ρ c (Proc.devRef .tc main_v38) = W6 m ρ c (Proc.devRef .tc main_v38) := by
  host_keeps hostOps3 main_v38

end Cert.GraphConv.Stable

end
-- ==== Proof.Spec.lean ====
/-
  The mathematics both programs compute, as whole-array functions over the extended reals, index by index.

  A node-feature array is 50000 x 128, a weight matrix 128 x 128, a bias 128 long.

  * `lin x w b`        : the input projection, row r and column q hold  (sum over k of x[r,k] * w[k,q]) + b[q].
  * `layer h a wr b wo`: one graph-convolution layer from the node features `h` and the neighbour sums `a`:
                          max ( (sum_k a[r,k] * wr[k,q]) + b[q] + (sum_k h[r,k] * wo[k,q]) , 0 ) + h[r,q].

  The sums are finite sums in the extended reals, where addition is commutative and associative (no
  finiteness of the entries is used anywhere): a product computed block of rows by block of rows and the
  same product computed on the whole array are the same sum at every entry.
-/
import Idealize.ShloMosaic.PureOps.Ideal
import Idealize.ShloMosaic.Lib.ValueIdx

noncomputable section

namespace Cert.GraphConv

open Idealize.ShloMosaic Idealize.ShloMosaic.ValueIdx

/-- Node features: 50000 rows of 128 entries. -/
abbrev SN : Shape := ⟨2, ![50000, 128]⟩
/-- A weight matrix. -/
abbrev SW : Shape := ⟨2, ![128, 128]⟩
/-- A bias vector. -/
abbrev SB : Shape := ⟨1, ![128]⟩

/-- The zero the rectifier compares against: the float pattern of +0.0 (both programs spell this same word). -/
abbrev zeroF : EReal := Ideal.ofBits .f32 0x00000000#32

/-- Row `r` of `x` against column `q` of `w`. -/
def rowCol (x : SN.Idx → EReal) (w : SW.Idx → EReal) (i : SN.Idx) : EReal :=
  ∑ k : Fin 128, x (ix2 (i 0) k) * w (ix2 k (i 1))

/-- The input projection `x · w + b`. -/
def lin (x : SN.Idx → EReal) (w : SW.Idx → EReal) (b : SB.Idx → EReal) : SN.Idx → EReal :=
  fun i => rowCol x w i + b (ix1 (i 1))

/-- One layer: `max (a · wr + b + h · wo, 0) + h`. -/
def layer (h a : SN.Idx → EReal) (wr : SW.Idx → EReal) (b : SB.Idx → EReal) (wo : SW.Idx → EReal) : SN.Idx → EReal :=
  fun i => max ((rowCol a wr i + b (ix1 (i 1))) + rowCol h wo i) zeroF + h i

end Cert.GraphConv

end
-- ==== Proof.Payload.lean ====
/-
  The arithmetic of the kernel bodies, read at one entry of the block they write, over the extended reals.

  Each body works on a block of 2000 rows. At the ideal values a change of float format is the identity, so:

  * the input projection's body writes, at row p and column q of its block,
        (sum over k of x[p,k] * w[k,q]) + b[q];
  * a layer's body writes, at row p and column q of its block,
        max ( (sum over k of a[p,k] * wr[k,q]) + b[q] + (sum over k of h[p,k] * wo[k,q]) , 0 ) + h[p,q].

  The one non-pointwise step is the matrix product: into a zero accumulator it is the sum, over the one
  contracted axis, of the products of the operands' entries; the contraction index is re-indexed to 0..127.
  The bias is a vector of 128 entries laid along every row: cast to one row, then that row repeated.
  A cast to the same shape is the identity.
-/
import proofs.«141604_j25125558682021_1_alg».proof.Proof.Gen.KernelIdeal.Skeleton
import proofs.«141604_j25125558682021_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.GraphConv.Pay

open Cert.KernelIdeal Cert.KernelIdeal.Gen Idealize.ShloMosaic Idealize.ShloMosaic.ValueIdx

/-! ## The matrix product at an entry -/

/-- The bodies' one contraction: a block of 2000 rows of 128 entries against a 128 x 128 matrix, the block's
    axis 1 contracted with the matrix's axis 0. -/
abbrev D : DotDims S2000x128 S128x128 S2000x128 := dot_S2000x128_S128x128_S2000x128_1_0_0_1_n_n

/-- The left operand's row is the output's row. -/
theorem D_lhs0 (i : S2000x128.Idx) (c : D.contr.Idx) : (D.lhsIdx i c 0).val = (i 0).val := by
  unfold DotDims.lhsIdx
  rw [dif_neg (show ¬(0 : Fin S2000x128.rank) ∈ D.lhsBatch by decide), dif_pos (show (0 : Fin S2000x128.rank) ∈ D.lhsNonContracting by decide)]
  rfl
/-- The left operand's column is the contraction index. -/
theorem D_lhs1 (i : S2000x128.Idx) (c : D.contr.Idx) : (D.lhsIdx i c 1).val = (c ⟨0, by decide⟩).val :=
  D.lhsIdx_val_of_single rfl i c
/-- The right operand's row is the contraction index. -/
theorem D_rhs0 (i : S2000x128.Idx) (c : D.contr.Idx) : (D.rhsIdx i c 0).val = (c ⟨0, by decide⟩).val :=
  D.rhsIdx_val_of_single rfl i c
/-- The right operand's column is the output's column. -/
theorem D_rhs1 (i : S2000x128.Idx) (c : D.contr.Idx) : (D.rhsIdx i c 1).val = (i 1).val := by
  unfold DotDims.rhsIdx
  rw [dif_neg (show ¬(1 : Fin S128x128.rank) ∈ D.rhsBatch by decide), dif_pos (show (1 : Fin S128x128.rank) ∈ D.rhsNonContracting by decide)]
  rfl

/-- The product accumulated into the zero splat, at row p and column q: the sum over k of lhs[p,k] * rhs[k,q]. -/
theorem matmul_at {φ₁ φ₂ : FTy} (lhs : FVec Ideal S2000x128 φ₁) (rhs : FVec Ideal S128x128 φ₂) (p : Fin 2000) (q : Fin 128) :
    matmul D none lhs rhs (constant (F := Ideal) S2000x128 .f32 0x00000000#32) (ix2 p q)
      = ∑ k : Fin 128, lhs (ix2 p k) * rhs (ix2 k q) := by
  show FloatOps.matmul D none lhs rhs (constant (F := Ideal) S2000x128 .f32 0x00000000#32) (ix2 p q) = _
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact D_lhs0 _ _
    | ⟨1, _⟩ => exact (D_lhs1 _ _).trans hk)
  have er : D.rhsIdx (ix2 p q) ((contrEquiv1 D 128 rfl rfl).symm k) = ix2 k q := funext fun a => Fin.ext (by
    match a with
    | ⟨0, _⟩ => exact (D_rhs0 _ _).trans hk
    | ⟨1, _⟩ => exact D_rhs1 _ _)
  rw [el, er]

/-! ## The bias laid along every row -/

/-- A vector of 128 entries cast to one row and that row repeated down the block reads, at (p, q), its entry q. -/
theorem bias_at (b : FVec Ideal S128 .f32) (p : Fin 2000) (q : Fin 128) :
    broadcastTo S2000x128 (shapeCast S1x128 b shapeCasts_S128_S1x128) broadcasts_S1x128_S2000x128 (ix2 p q) = b (ix1 q) :=
  (broadcastTo_1b_ab_apply (shapeCast S1x128 b shapeCasts_S128_S1x128) broadcasts_S1x128_S2000x128 p q).trans
    (shapeCast_a_1a_apply b shapeCasts_S128_S1x128 (0 : Fin 1) q)

/-! ## The input projection's body -/

theorem pay_lin (x : Vec Ideal S2000x128 .f32) (w : Vec Ideal S128x128 .f32) (b : Vec Ideal S128 .f32) (p : Fin 2000) (q : Fin 128) :
    k0_pay1 (F := Ideal) x w b (ix2 p q) = (∑ k : Fin 128, x (ix2 p k) * w (ix2 k q)) + b (ix1 q) := by
  unfold k0_pay1
  exact congrArg₂ (· + ·)
    (matmul_at (truncf .bf16 x bitsLt_bf16_f32) (truncf .bf16 w bitsLt_bf16_f32) p q)
    (bias_at b p q)

/-! ## A layer's body -/

/-- A layer's block arithmetic on operands already at their shapes. -/
def layerBlock (h a : FVec Ideal S2000x128 .f32) (wr wo : FVec Ideal S128x128 .f32) (b : FVec Ideal S128 .f32) :
    FVec Ideal S2000x128 .f32 :=
  addf
    (maximumf
      (addf
        (addf
          (matmul D none (truncf .bf16 a bitsLt_bf16_f32) (truncf .bf16 wr bitsLt_bf16_f32)
            (constant (F := Ideal) S2000x128 .f32 0x00000000#32))
          (broadcastTo S2000x128 (shapeCast S1x128 b shapeCasts_S128_S1x128) broadcasts_S1x128_S2000x128))
        (matmul D none (truncf .bf16 h bitsLt_bf16_f32) (truncf .bf16 wo bitsLt_bf16_f32)
          (constant (F := Ideal) S2000x128 .f32 0x00000000#32)))
      (broadcast S2000x128 (Scalar.ofBits (F := Ideal) .f32 0x00000000#32)))
    h

/-- At row p and column q. -/
theorem layerBlock_at (h a : FVec Ideal S2000x128 .f32) (wr wo : FVec Ideal S128x128 .f32) (b : FVec Ideal S128 .f32)
    (p : Fin 2000) (q : Fin 128) :
    layerBlock h a wr wo b (ix2 p q)
      = max (((∑ k : Fin 128, a (ix2 p k) * wr (ix2 k q)) + b (ix1 q)) + (∑ k : Fin 128, h (ix2 p k) * wo (ix2 k q)))
          (Ideal.ofBits .f32 0x00000000#32) + h (ix2 p q) := by
  unfold layerBlock
  exact congrArg₂ (· + ·)
    (congrArg₂ max
      (congrArg₂ (· + ·)
        (congrArg₂ (· + ·)
          (matmul_at (truncf .bf16 a bitsLt_bf16_f32) (truncf .bf16 wr bitsLt_bf16_f32) p q)
          (bias_at b p q))
        (matmul_at (truncf .bf16 h bitsLt_bf16_f32) (truncf .bf16 wo bitsLt_bf16_f32) p q))
      rfl)
    rfl

/-- The printed body is that arithmetic: its casts are casts to the same shape. -/
theorem k1_pay1_eq_layerBlock (h a : Vec Ideal S2000x128 .f32) (wr wo : Vec Ideal S128x128 .f32) (b : Vec Ideal S128 .f32) :
    k1_pay1 (F := Ideal) h a wr wo b = layerBlock h a wr wo b := by
  have e : k1_pay1 (F := Ideal) h a wr wo b
      = layerBlock (shapeCast S2000x128 h shapeCasts_S2000x128_S2000x128) (shapeCast S2000x128 a shapeCasts_S2000x128_S2000x128)
          (shapeCast S128x128 wr shapeCasts_S128x128_S128x128) (shapeCast S128x128 wo shapeCasts_S128x128_S128x128)
          (shapeCast S128 b shapeCasts_S128_S128) := rfl
  rw [e, shapeCast_self h, shapeCast_self a, shapeCast_self wr, shapeCast_self wo, shapeCast_self b]

theorem pay_layer (h a : Vec Ideal S2000x128 .f32) (wr wo : Vec Ideal S128x128 .f32) (b : Vec Ideal S128 .f32) (p : Fin 2000) (q : Fin 128) :
    k1_pay1 (F := Ideal) h a wr wo b (ix2 p q)
      = max (((∑ k : Fin 128, a (ix2 p k) * wr (ix2 k q)) + b (ix1 q)) + (∑ k : Fin 128, h (ix2 p k) * wo (ix2 k q)))
          Cert.GraphConv.zeroF + h (ix2 p q) :=
  (congrFun (k1_pay1_eq_layerBlock h a wr wo b) (ix2 p q)).trans (layerBlock_at h a wr wo b p q)

/-! ## The three layers' bodies are one text -/

theorem k2_pay1_eq : @k2_pay1 Ideal _ = @k1_pay1 Ideal _ := rfl
theorem k3_pay1_eq : @k3_pay1 Ideal _ = @k1_pay1 Ideal _ := rfl

end Cert.GraphConv.Pay

end
-- ==== Proof.Blocks.lean ====
/-
  From blocks to arrays: what each of the four kernel regions leaves in its output array, as ONE whole-array
  function of the arrays the region finds when it is entered.

  Every region runs over 25 grid points. Point `t` is handed rows 2000·t … 2000·t + 1999 of each row-blocked
  operand (the node features, and in a layer region also the neighbour sums) and the weight matrices and bias
  whole, and writes back rows 2000·t … 2000·t + 1999 of the result. The body's arithmetic at entry (p, q) of the
  block is the payload lemma's sum over k of (block row p) · (weight column q); since block row p IS array row
  2000·t + p, what is written back is exactly rows block t of the whole-array function `lin` (region 0) or
  `layer` (regions 1-3) of the entry arrays. The 25 blocks cover the 50000 rows, so the array ends holding that
  function everywhere. All statements are at a PARAMETER `V`, the buffer contents when the region is entered.
-/
import proofs.«141604_j25125558682021_1_alg».proof.Proof.PatchedKernelIdealFrame
import proofs.«141604_j25125558682021_1_alg».proof.Proof.Spec
import proofs.«141604_j25125558682021_1_alg».proof.Proof.Payload
import Idealize.ShloMosaic.Lib.Pipeline.Value
import Idealize.ShloMosaic.Lib.ValueIdx

set_option maxRecDepth 16384

noncomputable section

namespace Cert.GraphConv.Blocks

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The origin of a rank-2 block, as the constant function. -/
theorem hz2 : (![0, 0] : Fin 2 → Nat) = fun _ => 0 := funext fun a => by fin_cases a <;> rfl
/-- The origin of a rank-1 block, as the constant function. -/
theorem hz1 : (![0] : Fin 1 → Nat) = fun _ => 0 := funext fun a => by fin_cases a; rfl

/-- The input projection at one entry `i`, from the three operand entries a block reads: row `i 0` of the features,
    column `i 1` of the weights, entry `i 1` of the bias. -/
theorem lin_at_block (X : SN.Idx → EReal) (W : SW.Idx → EReal) (B : SB.Idx → EReal) (i : SN.Idx)
    (a : Fin 128 → SN.Idx) (w : Fin 128 → SW.Idx) (b : SB.Idx)
    (ha : ∀ k, a k = ix2 (i 0) k) (hw : ∀ k, w k = ix2 k (i 1)) (hb : b = ix1 (i 1)) :
    (∑ k : Fin 128, X (a k) * W (w k)) + B b = lin X W B i := by
  unfold lin rowCol
  rw [hb]
  exact congrArg (· + _) (Finset.sum_congr rfl fun k _ => congrArg₂ (· * ·) (congrArg X (ha k)) (congrArg W (hw k)))

/-- One layer at one entry `i`, from the operand entries a block reads: row `i 0` of the features and of the neighbour
    sums, column `i 1` of the two weight matrices, entry `i 1` of the bias, and the feature entry `i` itself. -/
theorem layer_at_block (H A : SN.Idx → EReal) (WR : SW.Idx → EReal) (B : SB.Idx → EReal) (WO : SW.Idx → EReal) (i : SN.Idx)
    (h a : Fin 128 → SN.Idx) (wr wo : Fin 128 → SW.Idx) (b : SB.Idx) (hi : SN.Idx)
    (hh : ∀ k, h k = ix2 (i 0) k) (ha : ∀ k, a k = ix2 (i 0) k) (hwr : ∀ k, wr k = ix2 k (i 1)) (hwo : ∀ k, wo k = ix2 k (i 1))
    (hb : b = ix1 (i 1)) (hhi : hi = i) :
    max (((∑ k : Fin 128, A (a k) * WR (wr k)) + B b) + (∑ k : Fin 128, H (h k) * WO (wo k))) zeroF + H hi
      = layer H A WR B WO i := by
  unfold layer rowCol
  rw [hb, hhi]
  have e1 : (∑ k : Fin 128, A (a k) * WR (wr k)) = ∑ k : Fin 128, A (ix2 (i 0) k) * WR (ix2 k (i 1)) :=
    Finset.sum_congr rfl fun k _ => congrArg₂ (· * ·) (congrArg A (ha k)) (congrArg WR (hwr k))
  have e2 : (∑ k : Fin 128, H (h k) * WO (wo k)) = ∑ k : Fin 128, H (ix2 (i 0) k) * WO (ix2 k (i 1)) :=
    Finset.sum_congr rfl fun k _ => congrArg₂ (· * ·) (congrArg H (hh k)) (congrArg WO (hwo k))
  rw [e1, e2]
  rfl

/-! ## Region 0: the input projection -/

/-- The printed index maps over the 25 grid points: point `t` reads rows block `t` of the features and writes rows
    block `t` of the result; the weight matrix and the bias are read whole at every point. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Every block of rows is some point's. -/
theorem onto0 : ∀ q0 : Fin 25, ∃ t : Fin cfg0.N, win0_3.index t = ![q0.val, 0] :=
  (by decide +kernel : ∀ q0 : Fin 25, ∃ t : Fin grid0.N, win0_3.index t = ![q0.val, 0])

/-- What point `t` writes back is rows block `t` of `lin` of the arrays as the region finds them. -/
theorem flushed0 (c : Dev nD) (t : Fin cfg0.N) :
    (dat0 (F := Ideal) V c).flushed 3 t
      = ((cfg0.win 3).blk t).view.read (Elt Ideal) (lin (V c main_arg0) (V c main_arg2) (V c main_arg3)) := by
  show (cfg0.win 3).cut (grid0.coords t) ((dat0 V c).after 3 t) = _
  rw [after0_3]
  unfold out0_3
  rw [View.canon_unit_zero hz2]
  simp only [View.ld_unit_zero (S := S2000x128) hz2, View.ld_unit_zero (S := S128x128) hz2, View.ld_unit_zero (S := S128) hz1]
  obtain ⟨e0, e1, e2, e3, e4, e5, e6⟩ := idx0 t
  funext j
  obtain ⟨p, q, rfl⟩ : ∃ (p : Fin 2000) (q : Fin 128), j = ix2 p q := ⟨j 0, j 1, eq_ix2 j⟩
  refine (Pay.pay_lin (iblk0 V c 0 t) (iblk0 V c 1 t) (iblk0 V c 2 t) p q).trans ?_
  have hA : ∀ k : Fin 128, ((cfg0.win 0).blk t).view.emb (ix2 p k) = ix2 ((((cfg0.win 3).blk t).view.emb (ix2 p q)) 0) k := fun k => by
    funext a; apply Fin.ext
    match a with
    | ⟨0, _⟩ => show win0_0.index t (0 : Fin 2) * 2000 + 1 * p.val = win0_3.index t (0 : Fin 2) * 2000 + 1 * p.val; omega
    | ⟨1, _⟩ => show win0_0.index t (1 : Fin 2) * 128 + 1 * k.val = k.val; omega
  have hW : ∀ k : Fin 128, ((cfg0.win 1).blk t).view.emb (ix2 k q) = ix2 k ((((cfg0.win 3).blk t).view.emb (ix2 p q)) 1) := fun k => by
    funext a; apply Fin.ext
    match a with
    | ⟨0, _⟩ => show win0_1.index t (0 : Fin 2) * 128 + 1 * k.val = k.val; omega
    | ⟨1, _⟩ => show win0_1.index t (1 : Fin 2) * 128 + 1 * q.val = win0_3.index t (1 : Fin 2) * 128 + 1 * q.val; omega
  have hB : ((cfg0.win 2).blk t).view.emb (ix1 q) = ix1 ((((cfg0.win 3).blk t).view.emb (ix2 p q)) 1) := by
    funext a; apply Fin.ext
    match a with
    | ⟨0, _⟩ => show win0_2.index t (0 : Fin 1) * 128 + 1 * q.val = win0_3.index t (1 : Fin 2) * 128 + 1 * q.val; omega
  exact lin_at_block (V c main_arg0) (V c main_arg2) (V c main_arg3) (((cfg0.win 3).blk t).view.emb (ix2 p q))
    (fun k => ((cfg0.win 0).blk t).view.emb (ix2 p k)) (fun k => ((cfg0.win 1).blk t).view.emb (ix2 k q))
    (((cfg0.win 2).blk t).view.emb (ix1 q)) hA hW hB

/-- An index of the array is in point `t`'s block iff each coordinate is in the block's range on its axis. -/
theorem mem_blk0 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v4).slice (win0_3.rect t)).set ↔ _
  rw [View.set_slice_whole, Rect.mem_set_unit]
  exact Iff.rfl

/-- The 25 blocks of 2000 rows cover the 50000 rows: row `r` is in the block of point `r / 2000`. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := onto0 ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- The region's output array after its 25 write-backs: `lin` of the arrays as the region finds them. -/
theorem final0 (c : Dev nD) :
    (dat0 (F := Ideal) V c).arrAt 3 cfg0.N = lin (V c main_arg0) (V c main_arg2) (V c main_arg3) :=
  (dat0 (F := Ideal) V c).arrAt_eq_of_cover 3 _ (fun t _ => flushed0 V c t) cover0

/-! ## Region 1: the first layer -/

/-- The printed index maps over the 25 grid points: point `t` reads rows block `t` of the features and of the
    neighbour sums and writes rows block `t` of the result; the two weight matrices and the bias are read whole. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Every block of rows is some point's. -/
theorem onto1 : ∀ q0 : Fin 25, ∃ t : Fin cfg1.N, win1_5.index t = ![q0.val, 0] :=
  (by decide +kernel : ∀ q0 : Fin 25, ∃ t : Fin grid1.N, win1_5.index t = ![q0.val, 0])

/-- What point `t` writes back is rows block `t` of the layer's whole-array function of the arrays as the region finds them. -/
theorem flushed1 (c : Dev nD) (t : Fin cfg1.N) :
    (dat1 (F := Ideal) V c).flushed 5 t
      = ((cfg1.win 5).blk t).view.read (Elt Ideal) (layer (V c main_v4) (V c main_v14) (V c main_v16) (V c main_v18) (V c main_v20)) := by
  show (cfg1.win 5).cut (grid1.coords t) ((dat1 V c).after 5 t) = _
  rw [after1_5]
  unfold out1_5
  rw [View.canon_unit_zero hz2]
  simp only [View.ld_unit_zero (S := S2000x128) hz2, View.ld_unit_zero (S := S128x128) hz2, View.ld_unit_zero (S := S128) hz1]
  obtain ⟨e0, e1, e2, e3, e4, e5, e6, e7, e8, e9, e10⟩ := idx1 t
  funext j
  obtain ⟨p, q, rfl⟩ : ∃ (p : Fin 2000) (q : Fin 128), j = ix2 p q := ⟨j 0, j 1, eq_ix2 j⟩
  refine (Pay.pay_layer (iblk1 V c 0 t) (iblk1 V c 1 t) (iblk1 V c 2 t) (iblk1 V c 4 t) (iblk1 V c 3 t) p q).trans ?_
  have hH : ∀ k : Fin 128, ((cfg1.win 0).blk t).view.emb (ix2 p k) = ix2 ((((cfg1.win 5).blk t).view.emb (ix2 p q)) 0) k := fun k => by
    funext a; apply Fin.ext
    match a with
    | ⟨0, _⟩ => show win1_0.index t (0 : Fin 2) * 2000 + 1 * p.val = win1_5.index t (0 : Fin 2) * 2000 + 1 * p.val; omega
    | ⟨1, _⟩ => show win1_0.index t (1 : Fin 2) * 128 + 1 * k.val = k.val; omega
  have hA : ∀ k : Fin 128, ((cfg1.win 1).blk t).view.emb (ix2 p k) = ix2 ((((cfg1.win 5).blk t).view.emb (ix2 p q)) 0) k := fun k => by
    funext a; apply Fin.ext
    match a with
    | ⟨0, _⟩ => show win1_1.index t (0 : Fin 2) * 2000 + 1 * p.val = win1_5.index t (0 : Fin 2) * 2000 + 1 * p.val; omega
    | ⟨1, _⟩ => show win1_1.index t (1 : Fin 2) * 128 + 1 * k.val = k.val; omega
  have hWR : ∀ k : Fin 128, ((cfg1.win 2).blk t).view.emb (ix2 k q) = ix2 k ((((cfg1.win 5).blk t).view.emb (ix2 p q)) 1) := fun k => by
    funext a; apply Fin.ext
    match a with
    | ⟨0, _⟩ => show win1_2.index t (0 : Fin 2) * 128 + 1 * k.val = k.val; omega
    | ⟨1, _⟩ => show win1_2.index t (1 : Fin 2) * 128 + 1 * q.val = win1_5.index t (1 : Fin 2) * 128 + 1 * q.val; omega
  have hWO : ∀ k : Fin 128, ((cfg1.win 4).blk t).view.emb (ix2 k q) = ix2 k ((((cfg1.win 5).blk t).view.emb (ix2 p q)) 1) := fun k => by
    funext a; apply Fin.ext
    match a with
    | ⟨0, _⟩ => show win1_4.index t (0 : Fin 2) * 128 + 1 * k.val = k.val; omega
    | ⟨1, _⟩ => show win1_4.index t (1 : Fin 2) * 128 + 1 * q.val = win1_5.index t (1 : Fin 2) * 128 + 1 * q.val; omega
  have hB : ((cfg1.win 3).blk t).view.emb (ix1 q) = ix1 ((((cfg1.win 5).blk t).view.emb (ix2 p q)) 1) := by
    funext a; apply Fin.ext
    match a with
    | ⟨0, _⟩ => show win1_3.index t (0 : Fin 1) * 128 + 1 * q.val = win1_5.index t (1 : Fin 2) * 128 + 1 * q.val; omega
  have hI : ((cfg1.win 0).blk t).view.emb (ix2 p q) = ((cfg1.win 5).blk t).view.emb (ix2 p q) := by
    funext a; apply Fin.ext
    match a with
    | ⟨0, _⟩ => show win1_0.index t (0 : Fin 2) * 2000 + 1 * p.val = win1_5.index t (0 : Fin 2) * 2000 + 1 * p.val; omega
    | ⟨1, _⟩ => show win1_0.index t (1 : Fin 2) * 128 + 1 * q.val = win1_5.index t (1 : Fin 2) * 128 + 1 * q.val; omega
  exact layer_at_block (V c main_v4) (V c main_v14) (V c main_v16) (V c main_v18) (V c main_v20) (((cfg1.win 5).blk t).view.emb (ix2 p q))
    (fun k => ((cfg1.win 0).blk t).view.emb (ix2 p k)) (fun k => ((cfg1.win 1).blk t).view.emb (ix2 p k))
    (fun k => ((cfg1.win 2).blk t).view.emb (ix2 k q)) (fun k => ((cfg1.win 4).blk t).view.emb (ix2 k q))
    (((cfg1.win 3).blk t).view.emb (ix1 q)) (((cfg1.win 0).blk t).view.emb (ix2 p q)) hH hA hWR hWO hB hI

/-- An index of the array is in point `t`'s block iff each coordinate is in the block's range on its axis. -/
theorem mem_blk1 (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v21).slice (win1_5.rect t)).set ↔ _
  rw [View.set_slice_whole, Rect.mem_set_unit]
  exact Iff.rfl

/-- The 25 blocks of 2000 rows cover the 50000 rows: row `r` is in the block of point `r / 2000`. -/
theorem cover1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := onto1 ⟨(i 0).val / 2000, by omega⟩
  have q0 : win1_5.index t (0 : Fin 2) = (i 0).val / 2000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- The region's output array after its 25 write-backs: the layer of the arrays as the region finds them. -/
theorem final1 (c : Dev nD) :
    (dat1 (F := Ideal) V c).arrAt 5 cfg1.N = layer (V c main_v4) (V c main_v14) (V c main_v16) (V c main_v18) (V c main_v20) :=
  (dat1 (F := Ideal) V c).arrAt_eq_of_cover 5 _ (fun t _ => flushed1 V c t) cover1

/-! ## Region 2: the second layer -/

/-- The printed index maps over the 25 grid points: point `t` reads rows block `t` of the features and of the
    neighbour sums and writes rows block `t` of the result; the two weight matrices and the bias are read whole. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Every block of rows is some point's. -/
theorem onto2 : ∀ q0 : Fin 25, ∃ t : Fin cfg2.N, win2_5.index t = ![q0.val, 0] :=
  (by decide +kernel : ∀ q0 : Fin 25, ∃ t : Fin grid2.N, win2_5.index t = ![q0.val, 0])

/-- What point `t` writes back is rows block `t` of the layer's whole-array function of the arrays as the region finds them. -/
theorem flushed2 (c : Dev nD) (t : Fin cfg2.N) :
    (dat2 (F := Ideal) V c).flushed 5 t
      = ((cfg2.win 5).blk t).view.read (Elt Ideal) (layer (V c main_v21) (V c main_v31) (V c main_v33) (V c main_v35) (V c main_v37)) := by
  show (cfg2.win 5).cut (grid2.coords t) ((dat2 V c).after 5 t) = _
  rw [after2_5]
  unfold out2_5
  rw [View.canon_unit_zero hz2]
  simp only [View.ld_unit_zero (S := S2000x128) hz2, View.ld_unit_zero (S := S128x128) hz2, View.ld_unit_zero (S := S128) hz1]
  obtain ⟨e0, e1, e2, e3, e4, e5, e6, e7, e8, e9, e10⟩ := idx2 t
  funext j
  obtain ⟨p, q, rfl⟩ : ∃ (p : Fin 2000) (q : Fin 128), j = ix2 p q := ⟨j 0, j 1, eq_ix2 j⟩
  refine (Pay.pay_layer (iblk2 V c 0 t) (iblk2 V c 1 t) (iblk2 V c 2 t) (iblk2 V c 4 t) (iblk2 V c 3 t) p q).trans ?_
  have hH : ∀ k : Fin 128, ((cfg2.win 0).blk t).view.emb (ix2 p k) = ix2 ((((cfg2.win 5).blk t).view.emb (ix2 p q)) 0) k := fun k => by
    funext a; apply Fin.ext
    match a with
    | ⟨0, _⟩ => show win2_0.index t (0 : Fin 2) * 2000 + 1 * p.val = win2_5.index t (0 : Fin 2) * 2000 + 1 * p.val; omega
    | ⟨1, _⟩ => show win2_0.index t (1 : Fin 2) * 128 + 1 * k.val = k.val; omega
  have hA : ∀ k : Fin 128, ((cfg2.win 1).blk t).view.emb (ix2 p k) = ix2 ((((cfg2.win 5).blk t).view.emb (ix2 p q)) 0) k := fun k => by
    funext a; apply Fin.ext
    match a with
    | ⟨0, _⟩ => show win2_1.index t (0 : Fin 2) * 2000 + 1 * p.val = win2_5.index t (0 : Fin 2) * 2000 + 1 * p.val; omega
    | ⟨1, _⟩ => show win2_1.index t (1 : Fin 2) * 128 + 1 * k.val = k.val; omega
  have hWR : ∀ k : Fin 128, ((cfg2.win 2).blk t).view.emb (ix2 k q) = ix2 k ((((cfg2.win 5).blk t).view.emb (ix2 p q)) 1) := fun k => by
    funext a; apply Fin.ext
    match a with
    | ⟨0, _⟩ => show win2_2.index t (0 : Fin 2) * 128 + 1 * k.val = k.val; omega
    | ⟨1, _⟩ => show win2_2.index t (1 : Fin 2) * 128 + 1 * q.val = win2_5.index t (1 : Fin 2) * 128 + 1 * q.val; omega
  have hWO : ∀ k : Fin 128, ((cfg2.win 4).blk t).view.emb (ix2 k q) = ix2 k ((((cfg2.win 5).blk t).view.emb (ix2 p q)) 1) := fun k => by
    funext a; apply Fin.ext
    match a with
    | ⟨0, _⟩ => show win2_4.index t (0 : Fin 2) * 128 + 1 * k.val = k.val; omega
    | ⟨1, _⟩ => show win2_4.index t (1 : Fin 2) * 128 + 1 * q.val = win2_5.index t (1 : Fin 2) * 128 + 1 * q.val; omega
  have hB : ((cfg2.win 3).blk t).view.emb (ix1 q) = ix1 ((((cfg2.win 5).blk t).view.emb (ix2 p q)) 1) := by
    funext a; apply Fin.ext
    match a with
    | ⟨0, _⟩ => show win2_3.index t (0 : Fin 1) * 128 + 1 * q.val = win2_5.index t (1 : Fin 2) * 128 + 1 * q.val; omega
  have hI : ((cfg2.win 0).blk t).view.emb (ix2 p q) = ((cfg2.win 5).blk t).view.emb (ix2 p q) := by
    funext a; apply Fin.ext
    match a with
    | ⟨0, _⟩ => show win2_0.index t (0 : Fin 2) * 2000 + 1 * p.val = win2_5.index t (0 : Fin 2) * 2000 + 1 * p.val; omega
    | ⟨1, _⟩ => show win2_0.index t (1 : Fin 2) * 128 + 1 * q.val = win2_5.index t (1 : Fin 2) * 128 + 1 * q.val; omega
  exact layer_at_block (V c main_v21) (V c main_v31) (V c main_v33) (V c main_v35) (V c main_v37) (((cfg2.win 5).blk t).view.emb (ix2 p q))
    (fun k => ((cfg2.win 0).blk t).view.emb (ix2 p k)) (fun k => ((cfg2.win 1).blk t).view.emb (ix2 p k))
    (fun k => ((cfg2.win 2).blk t).view.emb (ix2 k q)) (fun k => ((cfg2.win 4).blk t).view.emb (ix2 k q))
    (((cfg2.win 3).blk t).view.emb (ix1 q)) (((cfg2.win 0).blk t).view.emb (ix2 p q)) hH hA hWR hWO hB hI

/-- An index of the array is in point `t`'s block iff each coordinate is in the block's range on its axis. -/
theorem mem_blk2 (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v38).slice (win2_5.rect t)).set ↔ _
  rw [View.set_slice_whole, Rect.mem_set_unit]
  exact Iff.rfl

/-- The 25 blocks of 2000 rows cover the 50000 rows: row `r` is in the block of point `r / 2000`. -/
theorem cover2 (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ := onto2 ⟨(i 0).val / 2000, by omega⟩
  have q0 : win2_5.index t (0 : Fin 2) = (i 0).val / 2000 := congrFun ht 0
  have q1 : win2_5.index t (1 : Fin 2) = 0 := congrFun ht 1
  refine ⟨t, flush2_5 t, ?_⟩
  rw [mem_blk2]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 128 ≤ (i 1).val ∧ (i 1).val < win2_5.index t (1 : Fin 2) * 128 + 128; omega

/-- The region's output array after its 25 write-backs: the layer of the arrays as the region finds them. -/
theorem final2 (c : Dev nD) :
    (dat2 (F := Ideal) V c).arrAt 5 cfg2.N = layer (V c main_v21) (V c main_v31) (V c main_v33) (V c main_v35) (V c main_v37) :=
  (dat2 (F := Ideal) V c).arrAt_eq_of_cover 5 _ (fun t _ => flushed2 V c t) cover2

/-! ## Region 3: the third layer -/

/-- The printed index maps over the 25 grid points: point `t` reads rows block `t` of the features and of the
    neighbour sums and writes rows block `t` of the result; the two weight matrices and the bias are read whole. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Every block of rows is some point's. -/
theorem onto3 : ∀ q0 : Fin 25, ∃ t : Fin cfg3.N, win3_5.index t = ![q0.val, 0] :=
  (by decide +kernel : ∀ q0 : Fin 25, ∃ t : Fin grid3.N, win3_5.index t = ![q0.val, 0])

/-- What point `t` writes back is rows block `t` of the layer's whole-array function of the arrays as the region finds them. -/
theorem flushed3 (c : Dev nD) (t : Fin cfg3.N) :
    (dat3 (F := Ideal) V c).flushed 5 t
      = ((cfg3.win 5).blk t).view.read (Elt Ideal) (layer (V c main_v38) (V c main_v48) (V c main_v50) (V c main_v52) (V c main_v54)) := by
  show (cfg3.win 5).cut (grid3.coords t) ((dat3 V c).after 5 t) = _
  rw [after3_5]
  unfold out3_5
  rw [View.canon_unit_zero hz2]
  simp only [View.ld_unit_zero (S := S2000x128) hz2, View.ld_unit_zero (S := S128x128) hz2, View.ld_unit_zero (S := S128) hz1]
  obtain ⟨e0, e1, e2, e3, e4, e5, e6, e7, e8, e9, e10⟩ := idx3 t
  funext j
  obtain ⟨p, q, rfl⟩ : ∃ (p : Fin 2000) (q : Fin 128), j = ix2 p q := ⟨j 0, j 1, eq_ix2 j⟩
  refine (Pay.pay_layer (iblk3 V c 0 t) (iblk3 V c 1 t) (iblk3 V c 2 t) (iblk3 V c 4 t) (iblk3 V c 3 t) p q).trans ?_
  have hH : ∀ k : Fin 128, ((cfg3.win 0).blk t).view.emb (ix2 p k) = ix2 ((((cfg3.win 5).blk t).view.emb (ix2 p q)) 0) k := fun k => by
    funext a; apply Fin.ext
    match a with
    | ⟨0, _⟩ => show win3_0.index t (0 : Fin 2) * 2000 + 1 * p.val = win3_5.index t (0 : Fin 2) * 2000 + 1 * p.val; omega
    | ⟨1, _⟩ => show win3_0.index t (1 : Fin 2) * 128 + 1 * k.val = k.val; omega
  have hA : ∀ k : Fin 128, ((cfg3.win 1).blk t).view.emb (ix2 p k) = ix2 ((((cfg3.win 5).blk t).view.emb (ix2 p q)) 0) k := fun k => by
    funext a; apply Fin.ext
    match a with
    | ⟨0, _⟩ => show win3_1.index t (0 : Fin 2) * 2000 + 1 * p.val = win3_5.index t (0 : Fin 2) * 2000 + 1 * p.val; omega
    | ⟨1, _⟩ => show win3_1.index t (1 : Fin 2) * 128 + 1 * k.val = k.val; omega
  have hWR : ∀ k : Fin 128, ((cfg3.win 2).blk t).view.emb (ix2 k q) = ix2 k ((((cfg3.win 5).blk t).view.emb (ix2 p q)) 1) := fun k => by
    funext a; apply Fin.ext
    match a with
    | ⟨0, _⟩ => show win3_2.index t (0 : Fin 2) * 128 + 1 * k.val = k.val; omega
    | ⟨1, _⟩ => show win3_2.index t (1 : Fin 2) * 128 + 1 * q.val = win3_5.index t (1 : Fin 2) * 128 + 1 * q.val; omega
  have hWO : ∀ k : Fin 128, ((cfg3.win 4).blk t).view.emb (ix2 k q) = ix2 k ((((cfg3.win 5).blk t).view.emb (ix2 p q)) 1) := fun k => by
    funext a; apply Fin.ext
    match a with
    | ⟨0, _⟩ => show win3_4.index t (0 : Fin 2) * 128 + 1 * k.val = k.val; omega
    | ⟨1, _⟩ => show win3_4.index t (1 : Fin 2) * 128 + 1 * q.val = win3_5.index t (1 : Fin 2) * 128 + 1 * q.val; omega
  have hB : ((cfg3.win 3).blk t).view.emb (ix1 q) = ix1 ((((cfg3.win 5).blk t).view.emb (ix2 p q)) 1) := by
    funext a; apply Fin.ext
    match a with
    | ⟨0, _⟩ => show win3_3.index t (0 : Fin 1) * 128 + 1 * q.val = win3_5.index t (1 : Fin 2) * 128 + 1 * q.val; omega
  have hI : ((cfg3.win 0).blk t).view.emb (ix2 p q) = ((cfg3.win 5).blk t).view.emb (ix2 p q) := by
    funext a; apply Fin.ext
    match a with
    | ⟨0, _⟩ => show win3_0.index t (0 : Fin 2) * 2000 + 1 * p.val = win3_5.index t (0 : Fin 2) * 2000 + 1 * p.val; omega
    | ⟨1, _⟩ => show win3_0.index t (1 : Fin 2) * 128 + 1 * q.val = win3_5.index t (1 : Fin 2) * 128 + 1 * q.val; omega
  exact layer_at_block (V c main_v38) (V c main_v48) (V c main_v50) (V c main_v52) (V c main_v54) (((cfg3.win 5).blk t).view.emb (ix2 p q))
    (fun k => ((cfg3.win 0).blk t).view.emb (ix2 p k)) (fun k => ((cfg3.win 1).blk t).view.emb (ix2 p k))
    (fun k => ((cfg3.win 2).blk t).view.emb (ix2 k q)) (fun k => ((cfg3.win 4).blk t).view.emb (ix2 k q))
    (((cfg3.win 3).blk t).view.emb (ix1 q)) (((cfg3.win 0).blk t).view.emb (ix2 p q)) hH hA hWR hWO hB hI

/-- An index of the array is in point `t`'s block iff each coordinate is in the block's range on its axis. -/
theorem mem_blk3 (t : Fin cfg3.N) (i : S50000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole main_v55).slice (win3_5.rect t)).set ↔ _
  rw [View.set_slice_whole, Rect.mem_set_unit]
  exact Iff.rfl

/-- The 25 blocks of 2000 rows cover the 50000 rows: row `r` is in the block of point `r / 2000`. -/
theorem cover3 (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  obtain ⟨t, ht⟩ := onto3 ⟨(i 0).val / 2000, by omega⟩
  have q0 : win3_5.index t (0 : Fin 2) = (i 0).val / 2000 := congrFun ht 0
  have q1 : win3_5.index t (1 : Fin 2) = 0 := congrFun ht 1
  refine ⟨t, flush3_5 t, ?_⟩
  rw [mem_blk3]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 128 ≤ (i 1).val ∧ (i 1).val < win3_5.index t (1 : Fin 2) * 128 + 128; omega

/-- The region's output array after its 25 write-backs: the layer of the arrays as the region finds them. -/
theorem final3 (c : Dev nD) :
    (dat3 (F := Ideal) V c).arrAt 5 cfg3.N = layer (V c main_v38) (V c main_v48) (V c main_v50) (V c main_v52) (V c main_v54) :=
  (dat3 (F := Ideal) V c).arrAt_eq_of_cover 5 _ (fun t _ => flushed3 V c t) cover3

end Cert.GraphConv.Blocks

end
-- ==== Proof.RefStages.lean ====
/-
  The reference program's stages are the specification's functions.

  The reference computes, on whole arrays,
    * the input projection  x · w + b  (a contraction over the 128 columns of x, then the bias broadcast along the rows), and
    * three times the same layer: from the node features h and the neighbour sums a,
        max ( (a · wr + b) + h · wo , 0 ) + h
      where wr, b, wo are the layer's slices of the stacked weights.
  Read at an entry (r, q), a contraction is the finite sum over k of left[r, k] * right[k, q], the bias broadcast reads b[q],
  and the zero broadcast reads the zero: entry by entry these are the specification's `lin` and `layer`.
  The neighbour sums (a gather followed by a scatter-add) stay unopened: they enter only as the array `a`.
-/
import proofs.«141604_j25125558682021_1_alg».proof.Proof.Gen.ReferenceIdeal.Read
import proofs.«141604_j25125558682021_1_alg».proof.Proof.Spec

noncomputable section

namespace Cert.GraphConv.Ref

open Cert.ReferenceIdeal Cert.ReferenceIdeal.Read Idealize.ShloMosaic Idealize.ShloMosaic.ValueIdx

/-- The left operand of a contraction is read at row `i 0`, column `k`. -/
theorem lidx_eq (i : SN.Idx) (k : Fin 128) : lidx_main_v4 i k = ix2 (i 0) k :=
  funext fun a => Fin.ext (by match a with | ⟨0, _⟩ => rfl | ⟨1, _⟩ => rfl)

/-- The right operand of a contraction is read at row `k`, column `i 1`. -/
theorem ridx_eq (i : SN.Idx) (k : Fin 128) : ridx_main_v4 i k = ix2 k (i 1) :=
  funext fun a => Fin.ext (by match a with | ⟨0, _⟩ => rfl | ⟨1, _⟩ => rfl)

/-- A bias broadcast first to one row and then to every row is read at the column `i 1`. -/
theorem bidx_eq (i : SN.Idx) : idx_main_v5 (idx_main_v6 i) = ix1 (i 1) :=
  funext fun a => Fin.ext (by match a with | ⟨0, _⟩ => rfl)

/-- The contraction's sum at an entry is row `i 0` of `y` against column `i 1` of `w`. -/
theorem sum_rowCol (y : SN.Idx → EReal) (w : SW.Idx → EReal) (i : SN.Idx) :
    (∑ k : Fin 128, y (lidx_main_v4 i k) * w (ridx_main_v4 i k)) = rowCol y w i := by
  unfold rowCol
  refine Finset.sum_congr rfl fun k _ => ?_
  exact congrArg₂ (· * ·) (congrArg y (lidx_eq i k)) (congrArg w (ridx_eq i k))

/-- The input projection at an entry. -/
theorem lin_at (x : SN.Idx → EReal) (w : SW.Idx → EReal) (b : SB.Idx → EReal) (i : SN.Idx) :
    FloatOps.addf (F := Ideal) (φ := .f32) (∑ k : Fin 128, x (lidx_main_v4 i k) * w (ridx_main_v4 i k))
        (b (idx_main_v5 (idx_main_v6 i)))
      = lin x w b i := by
  rw [sum_rowCol, bidx_eq]
  rfl

/-- One layer at an entry: the two contractions, the bias, the comparison with zero and the residual. -/
theorem layer_at (h a : SN.Idx → EReal) (wr : SW.Idx → EReal) (b : SB.Idx → EReal) (wo : SW.Idx → EReal) (i : SN.Idx) :
    FloatOps.addf (F := Ideal) (φ := .f32)
        (FloatOps.maximumf (F := Ideal) (φ := .f32)
          (FloatOps.addf (F := Ideal) (φ := .f32)
            (FloatOps.addf (F := Ideal) (φ := .f32) (∑ k : Fin 128, a (lidx_main_v4 i k) * wr (ridx_main_v4 i k))
              (b (idx_main_v5 (idx_main_v6 i))))
            (∑ k : Fin 128, h (lidx_main_v4 i k) * wo (ridx_main_v4 i k)))
          (FloatOps.ofBits (F := Ideal) .f32 0x00000000#32))
        (h i)
      = layer h a wr b wo i := by
  rw [sum_rowCol, sum_rowCol, bidx_eq]
  rfl

/-- The reference's first stage is the input projection. -/
theorem ref_lin
    (x0 : (⟨S50000x128, .f32⟩ : BufTy).Contents (Elt Ideal))
    (x2 : (⟨S128x128, .f32⟩ : BufTy).Contents (Elt Ideal))
    (x3 : (⟨S128, .f32⟩ : BufTy).Contents (Elt Ideal)) :
    val_main_v7 (F := Ideal) x0 x2 x3 = Cert.GraphConv.lin x0 x2 x3 := by
  funext i
  rw [val_main_v7_apply, val_main_v4_apply, val_main_v6_apply, val_main_v5_apply]
  exact lin_at _ _ _ i

/-- The first layer: from the projection and its neighbour sums. -/
theorem ref_layer1
    (x0 : (⟨S50000x128, .f32⟩ : BufTy).Contents (Elt Ideal))
    (x1 : (⟨S2x800000, .i32⟩ : BufTy).Contents (Elt Ideal))
    (x2 : (⟨S128x128, .f32⟩ : BufTy).Contents (Elt Ideal))
    (x3 : (⟨S128, .f32⟩ : BufTy).Contents (Elt Ideal))
    (x4 : (⟨S3x128x128, .f32⟩ : BufTy).Contents (Elt Ideal))
    (x5 : (⟨S3x128, .f32⟩ : BufTy).Contents (Elt Ideal))
    (x6 : (⟨S3x128x128, .f32⟩ : BufTy).Contents (Elt Ideal)) :
    val_main_v31 (F := Ideal) x0 x1 x2 x3 x4 x5 x6
      = Cert.GraphConv.layer (val_main_v7 (F := Ideal) x0 x2 x3) (val_main_v17 (F := Ideal) x0 x1 x2 x3)
          (val_main_v19 (F := Ideal) x4) (val_main_v22 (F := Ideal) x5) (val_main_v27 (F := Ideal) x6) := by
  funext i
  rw [val_main_v31_apply, val_main_v30_apply, val_main_v29_apply, val_main_v25_apply,
    val_main_v20_apply, val_main_v24_apply, val_main_v23_apply, val_main_v28_apply,
    val_main_call0_v0_apply, val_main_call0_cst_apply]
  exact layer_at _ _ _ _ _ i

/-- The second layer: from the first layer's result and its neighbour sums. -/
theorem ref_layer2
    (x0 : (⟨S50000x128, .f32⟩ : BufTy).Contents (Elt Ideal))
    (x1 : (⟨S2x800000, .i32⟩ : BufTy).Contents (Elt Ideal))
    (x2 : (⟨S128x128, .f32⟩ : BufTy).Contents (Elt Ideal))
    (x3 : (⟨S128, .f32⟩ : BufTy).Contents (Elt Ideal))
    (x4 : (⟨S3x128x128, .f32⟩ : BufTy).Contents (Elt Ideal))
    (x5 : (⟨S3x128, .f32⟩ : BufTy).Contents (Elt Ideal))
    (x6 : (⟨S3x128x128, .f32⟩ : BufTy).Contents (Elt Ideal)) :
    val_main_v55 (F := Ideal) x0 x1 x2 x3 x4 x5 x6
      = Cert.GraphConv.layer (val_main_v31 (F := Ideal) x0 x1 x2 x3 x4 x5 x6) (val_main_v41 (F := Ideal) x0 x1 x2 x3 x4 x5 x6)
          (val_main_v43 (F := Ideal) x4) (val_main_v46 (F := Ideal) x5) (val_main_v51 (F := Ideal) x6) := by
  funext i
  rw [val_main_v55_apply, val_main_v54_apply, val_main_v53_apply, val_main_v49_apply,
    val_main_v44_apply, val_main_v48_apply, val_main_v47_apply, val_main_v52_apply,
    val_main_call1_v0_apply, val_main_call1_cst_apply]
  exact layer_at _ _ _ _ _ i

/-- The third layer: from the second layer's result and its neighbour sums. -/
theorem ref_layer3
    (x0 : (⟨S50000x128, .f32⟩ : BufTy).Contents (Elt Ideal))
    (x1 : (⟨S2x800000, .i32⟩ : BufTy).Contents (Elt Ideal))
    (x2 : (⟨S128x128, .f32⟩ : BufTy).Contents (Elt Ideal))
    (x3 : (⟨S128, .f32⟩ : BufTy).Contents (Elt Ideal))
    (x4 : (⟨S3x128x128, .f32⟩ : BufTy).Contents (Elt Ideal))
    (x5 : (⟨S3x128, .f32⟩ : BufTy).Contents (Elt Ideal))
    (x6 : (⟨S3x128x128, .f32⟩ : BufTy).Contents (Elt Ideal)) :
    val_main_v79 (F := Ideal) x0 x1 x2 x3 x4 x5 x6
      = Cert.GraphConv.layer (val_main_v55 (F := Ideal) x0 x1 x2 x3 x4 x5 x6) (val_main_v65 (F := Ideal) x0 x1 x2 x3 x4 x5 x6)
          (val_main_v67 (F := Ideal) x4) (val_main_v70 (F := Ideal) x5) (val_main_v75 (F := Ideal) x6) := by
  funext i
  rw [val_main_v79_apply, val_main_v78_apply, val_main_v77_apply, val_main_v73_apply,
    val_main_v68_apply, val_main_v72_apply, val_main_v71_apply, val_main_v76_apply,
    val_main_call2_v0_apply, val_main_call2_cst_apply]
  exact layer_at _ _ _ _ _ i

end Cert.GraphConv.Ref

end
-- ==== Proof.KernelValue.lean ====
/-
  The idealized kernel's result as a function of its seven arguments: it is the reference's last stage.

  The kernel's program alternates host stretches with four kernel regions. The host stretches are, operation
  for operation, the reference's own lines: the split of the edge list into source and destination indices; per
  layer the gather of the source rows of the current node features and their scatter-add at the destination
  rows (carried here as ONE opaque function of the features and the two index vectors — it is never opened: the
  two programs apply the same operations to the same arrays), and the slices of the stacked weights and biases.
  Only the dense part differs in form: the reference computes `x · w + b` and, per layer,
  `max (a · wr + b + h · wo, 0) + h` on whole arrays, the kernel on blocks of 2000 rows. The block lemmas give each
  region's output array as the same whole-array function, so, walking the boundaries in order, every array the
  kernel's program holds is the reference's stage of the same name-independent meaning, and the last region's
  output is the reference's result.
-/
import proofs.«141604_j25125558682021_1_alg».proof.Proof.PatchedKernelIdealFrame
import proofs.«141604_j25125558682021_1_alg».proof.Proof.Stable
import proofs.«141604_j25125558682021_1_alg».proof.Proof.Blocks
import proofs.«141604_j25125558682021_1_alg».proof.Proof.RefStages
import Idealize.ShloMosaic.Lib.StableHlo.Run

set_option maxRecDepth 16384

noncomputable section

namespace Cert.GraphConv.Value

open Cert.KernelIdeal Cert.KernelIdeal.Gen
open Idealize.ShloMosaic Idealize.ShloMosaic.TcCoe Idealize.SL.Sem Idealize.ShloMosaic.StableHlo
open Cert.ReferenceIdeal.Read

/-! ## The gather / scatter-add stretch as one function -/

/-- The neighbour sums of the node features `h` along the edges (`src`, `dst`): a negative source index is wrapped
    by the number of nodes, the source rows are gathered, and added up at the destination rows of a zero array. -/
def aggK {F : FTy → Type} [FloatOps F] (h : (⟨S50000x128, .f32⟩ : BufTy).Contents (Elt F)) (src dst : (⟨S800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant (F := F) S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The source and destination index vectors: rows 0 and 1 of the edge list. -/
abbrev srcOf (x1 : (⟨S2x800000, .i32⟩ : BufTy).Contents (Elt Ideal)) : (⟨S800000, .i32⟩ : BufTy).Contents (Elt Ideal) :=
  shapeCast _ (extractStridedSlice S1x800000 ![0, 0] x1 slices_S2x800000_S1x800000_0_0) shapeCasts_S1x800000_S800000
abbrev dstOf (x1 : (⟨S2x800000, .i32⟩ : BufTy).Contents (Elt Ideal)) : (⟨S800000, .i32⟩ : BufTy).Contents (Elt Ideal) :=
  shapeCast _ (extractStridedSlice S1x800000 ![1, 0] x1 slices_S2x800000_S1x800000_1_0) shapeCasts_S1x800000_S800000

/-- The reference's three scatter stages are this function of its feature stages: the same operations, line for line. -/
theorem agg_ref1 (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal)) :
    aggK (F := Ideal) (val_main_v7 (F := Ideal) x0 x2 x3) (srcOf x1) (dstOf x1) = val_main_v17 (F := Ideal) x0 x1 x2 x3 := by
  unfold aggK val_main_v17 val_main_v16 val_main_v15 val_main_cst val_main_v14 val_main_v13 val_main_v12 val_main_v11 val_main_v10
    val_main_c_0 val_main_v9 val_main_v8 val_main_c val_main_v3 val_main_v2 val_main_v1 val_main_v0
  rfl
theorem agg_ref2 (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S3x128x128, .f32⟩ : BufTy).Contents (Elt Ideal)) (x5 : (⟨S3x128, .f32⟩ : BufTy).Contents (Elt Ideal))
    (x6 : (⟨S3x128x128, .f32⟩ : BufTy).Contents (Elt Ideal)) :
    aggK (F := Ideal) (val_main_v31 (F := Ideal) x0 x1 x2 x3 x4 x5 x6) (srcOf x1) (dstOf x1) = val_main_v41 (F := Ideal) x0 x1 x2 x3 x4 x5 x6 := by
  unfold aggK val_main_v41 val_main_v40 val_main_v39 val_main_cst_3 val_main_v38 val_main_v37 val_main_v36 val_main_v35 val_main_v34
    val_main_c_2 val_main_v33 val_main_v32 val_main_c_1 val_main_v3 val_main_v2 val_main_v1 val_main_v0
  rfl
theorem agg_ref3 (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S3x128x128, .f32⟩ : BufTy).Contents (Elt Ideal)) (x5 : (⟨S3x128, .f32⟩ : BufTy).Contents (Elt Ideal))
    (x6 : (⟨S3x128x128, .f32⟩ : BufTy).Contents (Elt Ideal)) :
    aggK (F := Ideal) (val_main_v55 (F := Ideal) x0 x1 x2 x3 x4 x5 x6) (srcOf x1) (dstOf x1) = val_main_v65 (F := Ideal) x0 x1 x2 x3 x4 x5 x6 := by
  unfold aggK val_main_v65 val_main_v64 val_main_v63 val_main_cst_6 val_main_v62 val_main_v61 val_main_v60 val_main_v59 val_main_v58
    val_main_c_5 val_main_v57 val_main_v56 val_main_c_4 val_main_v3 val_main_v2 val_main_v1 val_main_v0
  rfl

variable (m : (ℓ : Loc nD τ sig) → Buf (Elt Ideal) ℓ) (ρ : Dev nD → PrngReg)

/-! ## Region 0: the input projection -/

/-- Region 0's output array after the region: the reference's input projection of the arguments. -/
theorem out0_eq (c : Dev nD) : W2 m ρ c (Proc.devRef .tc main_v4) = val_main_v7 (F := Ideal) (m ((c : Thread nD τ).loc main_arg0)) (m ((c : Thread nD τ).loc main_arg2)) (m ((c : Thread nD τ).loc main_arg3)) := by
  refine (W2_arr m ρ c 3).trans ?_
  rw [Blocks.final0 (V1 m ρ) c]
  show lin (W1 m ρ c (Proc.devRef .tc main_arg0)) (W1 m ρ c (Proc.devRef .tc main_arg2)) (W1 m ρ c (Proc.devRef .tc main_arg3)) = _
  rw [Stable.W1_arg0, Stable.W1_arg2, Stable.W1_arg3]
  exact (Ref.ref_lin _ _ _).symm

/-! ## Host stretch 1: the inputs of layer 1 -/

/-- The neighbour sums the stretch computes: the gather / scatter-add of the features it finds. -/
theorem agg1_eq (c : Dev nD) : W3 m ρ c (Proc.devRef .tc main_v14)
    = aggK (F := Ideal) (W2 m ρ c (Proc.devRef .tc main_v4)) (W2 m ρ c (Proc.devRef .tc main_v1)) (W2 m ρ c (Proc.devRef .tc main_v3)) := by
  show StableHlo.after hostOps1 _ (Proc.devRef .tc main_v14) = _
  after_results
  rfl
/-- The layer's relation weights: slice 0 of the stacked weights, reshaped. -/
theorem wr1_eq (c : Dev nD) : W3 m ρ c (Proc.devRef .tc main_v16)
    = shapeCast _ (extractStridedSlice S1x128x128 ![0, 0, 0] (W2 m ρ c (Proc.devRef .tc main_arg4)) slices_S3x128x128_S1x128x128_0_0_0) shapeCasts_S1x128x128_S128x128 := by
  show StableHlo.after hostOps1 _ (Proc.devRef .tc main_v16) = _
  after_results
  rfl
/-- The layer's bias: row 0 of the stacked biases, reshaped. -/
theorem b1_eq (c : Dev nD) : W3 m ρ c (Proc.devRef .tc main_v18)
    = shapeCast _ (extractStridedSlice S1x128 ![0, 0] (W2 m ρ c (Proc.devRef .tc main_arg5)) slices_S3x128_S1x128_0_0) shapeCasts_S1x128_S128 := by
  show StableHlo.after hostOps1 _ (Proc.devRef .tc main_v18) = _
  after_results
  rfl
/-- The layer's root weights: slice 0 of the stacked root weights, reshaped. -/
theorem wo1_eq (c : Dev nD) : W3 m ρ c (Proc.devRef .tc main_v20)
    = shapeCast _ (extractStridedSlice S1x128x128 ![0, 0, 0] (W2 m ρ c (Proc.devRef .tc main_arg6)) slices_S3x128x128_S1x128x128_0_0_0) shapeCasts_S1x128x128_S128x128 := by
  show StableHlo.after hostOps1 _ (Proc.devRef .tc main_v20) = _
  after_results
  rfl

/-- The same five arrays as the reference's stages of the seven arguments. -/
theorem in1_h (c : Dev nD) : W3 m ρ c (Proc.devRef .tc main_v4) = val_main_v7 (F := Ideal) (m ((c : Thread nD τ).loc main_arg0)) (m ((c : Thread nD τ).loc main_arg2)) (m ((c : Thread nD τ).loc main_arg3)) :=
  (Stable.W3_v4 m ρ c).trans (out0_eq m ρ c)
theorem in1_agg (c : Dev nD) : W3 m ρ c (Proc.devRef .tc main_v14) = val_main_v17 (F := Ideal) (m ((c : Thread nD τ).loc main_arg0)) (m ((c : Thread nD τ).loc main_arg1)) (m ((c : Thread nD τ).loc main_arg2)) (m ((c : Thread nD τ).loc main_arg3)) := by
  rw [agg1_eq, out0_eq, Stable.keep2_v1, Stable.keep2_v3, Stable.W1_v1, Stable.W1_v3]
  exact agg_ref1 _ _ _ _
theorem in1_wr (c : Dev nD) : W3 m ρ c (Proc.devRef .tc main_v16) = val_main_v19 (F := Ideal) (m ((c : Thread nD τ).loc main_arg4)) := by
  rw [wr1_eq, Stable.keep2_arg4, Stable.W1_arg4]
  rfl
theorem in1_b (c : Dev nD) : W3 m ρ c (Proc.devRef .tc main_v18) = val_main_v22 (F := Ideal) (m ((c : Thread nD τ).loc main_arg5)) := by
  rw [b1_eq, Stable.keep2_arg5, Stable.W1_arg5]
  rfl
theorem in1_wo (c : Dev nD) : W3 m ρ c (Proc.devRef .tc main_v20) = val_main_v27 (F := Ideal) (m ((c : Thread nD τ).loc main_arg6)) := by
  rw [wo1_eq, Stable.keep2_arg6, Stable.W1_arg6]
  rfl

/-- Region 1's output array after the region: layer 1 of the reference, of the seven arguments. -/
theorem out1_eq (c : Dev nD) : W4 m ρ c (Proc.devRef .tc main_v21) = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W4_arr m ρ c 5).trans ?_
  rw [Blocks.final1 (V3 m ρ) c]
  show layer (W3 m ρ c (Proc.devRef .tc main_v4)) (W3 m ρ c (Proc.devRef .tc main_v14)) (W3 m ρ c (Proc.devRef .tc main_v16)) (W3 m ρ c (Proc.devRef .tc main_v18)) (W3 m ρ c (Proc.devRef .tc main_v20)) = _
  rw [in1_h, in1_agg, in1_wr, in1_b, in1_wo]
  exact (Ref.ref_layer1 _ _ _ _ _ _ _).symm

/-! ## Host stretch 2: the inputs of layer 2 -/

/-- The neighbour sums the stretch computes: the gather / scatter-add of the features it finds. -/
theorem agg2_eq (c : Dev nD) : W5 m ρ c (Proc.devRef .tc main_v31)
    = aggK (F := Ideal) (W4 m ρ c (Proc.devRef .tc main_v21)) (W4 m ρ c (Proc.devRef .tc main_v1)) (W4 m ρ c (Proc.devRef .tc main_v3)) := by
  show StableHlo.after hostOps2 _ (Proc.devRef .tc main_v31) = _
  after_results
  rfl
/-- The layer's relation weights: slice 1 of the stacked weights, reshaped. -/
theorem wr2_eq (c : Dev nD) : W5 m ρ c (Proc.devRef .tc main_v33)
    = shapeCast _ (extractStridedSlice S1x128x128 ![1, 0, 0] (W4 m ρ c (Proc.devRef .tc main_arg4)) slices_S3x128x128_S1x128x128_1_0_0) shapeCasts_S1x128x128_S128x128 := by
  show StableHlo.after hostOps2 _ (Proc.devRef .tc main_v33) = _
  after_results
  rfl
/-- The layer's bias: row 1 of the stacked biases, reshaped. -/
theorem b2_eq (c : Dev nD) : W5 m ρ c (Proc.devRef .tc main_v35)
    = shapeCast _ (extractStridedSlice S1x128 ![1, 0] (W4 m ρ c (Proc.devRef .tc main_arg5)) slices_S3x128_S1x128_1_0) shapeCasts_S1x128_S128 := by
  show StableHlo.after hostOps2 _ (Proc.devRef .tc main_v35) = _
  after_results
  rfl
/-- The layer's root weights: slice 1 of the stacked root weights, reshaped. -/
theorem wo2_eq (c : Dev nD) : W5 m ρ c (Proc.devRef .tc main_v37)
    = shapeCast _ (extractStridedSlice S1x128x128 ![1, 0, 0] (W4 m ρ c (Proc.devRef .tc main_arg6)) slices_S3x128x128_S1x128x128_1_0_0) shapeCasts_S1x128x128_S128x128 := by
  show StableHlo.after hostOps2 _ (Proc.devRef .tc main_v37) = _
  after_results
  rfl

/-- The same five arrays as the reference's stages of the seven arguments. -/
theorem in2_h (c : Dev nD) : W5 m ρ c (Proc.devRef .tc main_v21) = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (Stable.W5_v21 m ρ c).trans (out1_eq m ρ c)
theorem in2_agg (c : Dev nD) : W5 m ρ c (Proc.devRef .tc main_v31) = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [agg2_eq, out1_eq, Stable.keep4_v1, Stable.keep4_v3, Stable.W1_v1, Stable.W1_v3]
  exact agg_ref2 _ _ _ _ _ _ _
theorem in2_wr (c : Dev nD) : W5 m ρ c (Proc.devRef .tc main_v33) = val_main_v43 (F := Ideal) (m ((c : Thread nD τ).loc main_arg4)) := by
  rw [wr2_eq, Stable.keep4_arg4, Stable.W1_arg4]
  rfl
theorem in2_b (c : Dev nD) : W5 m ρ c (Proc.devRef .tc main_v35) = val_main_v46 (F := Ideal) (m ((c : Thread nD τ).loc main_arg5)) := by
  rw [b2_eq, Stable.keep4_arg5, Stable.W1_arg5]
  rfl
theorem in2_wo (c : Dev nD) : W5 m ρ c (Proc.devRef .tc main_v37) = val_main_v51 (F := Ideal) (m ((c : Thread nD τ).loc main_arg6)) := by
  rw [wo2_eq, Stable.keep4_arg6, Stable.W1_arg6]
  rfl

/-- Region 2's output array after the region: layer 2 of the reference, of the seven arguments. -/
theorem out2_eq (c : Dev nD) : W6 m ρ c (Proc.devRef .tc main_v38) = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W6_arr m ρ c 5).trans ?_
  rw [Blocks.final2 (V5 m ρ) c]
  show layer (W5 m ρ c (Proc.devRef .tc main_v21)) (W5 m ρ c (Proc.devRef .tc main_v31)) (W5 m ρ c (Proc.devRef .tc main_v33)) (W5 m ρ c (Proc.devRef .tc main_v35)) (W5 m ρ c (Proc.devRef .tc main_v37)) = _
  rw [in2_h, in2_agg, in2_wr, in2_b, in2_wo]
  exact (Ref.ref_layer2 _ _ _ _ _ _ _).symm

/-! ## Host stretch 3: the inputs of layer 3 -/

/-- The neighbour sums the stretch computes: the gather / scatter-add of the features it finds. -/
theorem agg3_eq (c : Dev nD) : W7 m ρ c (Proc.devRef .tc main_v48)
    = aggK (F := Ideal) (W6 m ρ c (Proc.devRef .tc main_v38)) (W6 m ρ c (Proc.devRef .tc main_v1)) (W6 m ρ c (Proc.devRef .tc main_v3)) := by
  show StableHlo.after hostOps3 _ (Proc.devRef .tc main_v48) = _
  after_results
  rfl
/-- The layer's relation weights: slice 2 of the stacked weights, reshaped. -/
theorem wr3_eq (c : Dev nD) : W7 m ρ c (Proc.devRef .tc main_v50)
    = shapeCast _ (extractStridedSlice S1x128x128 ![2, 0, 0] (W6 m ρ c (Proc.devRef .tc main_arg4)) slices_S3x128x128_S1x128x128_2_0_0) shapeCasts_S1x128x128_S128x128 := by
  show StableHlo.after hostOps3 _ (Proc.devRef .tc main_v50) = _
  after_results
  rfl
/-- The layer's bias: row 2 of the stacked biases, reshaped. -/
theorem b3_eq (c : Dev nD) : W7 m ρ c (Proc.devRef .tc main_v52)
    = shapeCast _ (extractStridedSlice S1x128 ![2, 0] (W6 m ρ c (Proc.devRef .tc main_arg5)) slices_S3x128_S1x128_2_0) shapeCasts_S1x128_S128 := by
  show StableHlo.after hostOps3 _ (Proc.devRef .tc main_v52) = _
  after_results
  rfl
/-- The layer's root weights: slice 2 of the stacked root weights, reshaped. -/
theorem wo3_eq (c : Dev nD) : W7 m ρ c (Proc.devRef .tc main_v54)
    = shapeCast _ (extractStridedSlice S1x128x128 ![2, 0, 0] (W6 m ρ c (Proc.devRef .tc main_arg6)) slices_S3x128x128_S1x128x128_2_0_0) shapeCasts_S1x128x128_S128x128 := by
  show StableHlo.after hostOps3 _ (Proc.devRef .tc main_v54) = _
  after_results
  rfl

/-- The same five arrays as the reference's stages of the seven arguments. -/
theorem in3_h (c : Dev nD) : W7 m ρ c (Proc.devRef .tc main_v38) = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (Stable.W7_v38 m ρ c).trans (out2_eq m ρ c)
theorem in3_agg (c : Dev nD) : W7 m ρ c (Proc.devRef .tc main_v48) = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [agg3_eq, out2_eq, Stable.keep6_v1, Stable.keep6_v3, Stable.W1_v1, Stable.W1_v3]
  exact agg_ref3 _ _ _ _ _ _ _
theorem in3_wr (c : Dev nD) : W7 m ρ c (Proc.devRef .tc main_v50) = val_main_v67 (F := Ideal) (m ((c : Thread nD τ).loc main_arg4)) := by
  rw [wr3_eq, Stable.keep6_arg4, Stable.W1_arg4]
  rfl
theorem in3_b (c : Dev nD) : W7 m ρ c (Proc.devRef .tc main_v52) = val_main_v70 (F := Ideal) (m ((c : Thread nD τ).loc main_arg5)) := by
  rw [b3_eq, Stable.keep6_arg5, Stable.W1_arg5]
  rfl
theorem in3_wo (c : Dev nD) : W7 m ρ c (Proc.devRef .tc main_v54) = val_main_v75 (F := Ideal) (m ((c : Thread nD τ).loc main_arg6)) := by
  rw [wo3_eq, Stable.keep6_arg6, Stable.W1_arg6]
  rfl

/-- Region 3's output array after the region: layer 3 of the reference, of the seven arguments. -/
theorem out3_eq (c : Dev nD) : W8 m ρ c (Proc.devRef .tc main_v55) = val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 5).trans ?_
  rw [Blocks.final3 (V7 m ρ) c]
  show layer (W7 m ρ c (Proc.devRef .tc main_v38)) (W7 m ρ c (Proc.devRef .tc main_v48)) (W7 m ρ c (Proc.devRef .tc main_v50)) (W7 m ρ c (Proc.devRef .tc main_v52)) (W7 m ρ c (Proc.devRef .tc main_v54)) = _
  rw [in3_h, in3_agg, in3_wr, in3_b, in3_wo]
  exact (Ref.ref_layer3 _ _ _ _ _ _ _).symm

/-- THE KERNEL'S VALUE: the result buffer at the last boundary is the reference's last stage of the seven arguments. -/
theorem kernel_value (c : Dev nD) : W8 m ρ c (Proc.devRef .tc main_v55) = val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := out3_eq m ρ c

end Cert.GraphConv.Value

end
-- ==== Proof.lean ====
/-
  The certificate: a three-layer graph convolution (an input projection, then three times "sum the neighbours'
  features along the edges, combine them with the node's own through two weight matrices and a bias, rectify,
  add the node's features back"), written with its dense products in kernels over blocks of 2000 nodes, against
  the same network written on whole arrays.

  At the ideal instance a float is an extended real, a change of float format is the identity, and a matrix
  product is a finite sum of products at every entry. A product taken block of rows by block of rows is, entry by
  entry, the same sum as the product of the whole arrays, and everything else the two programs do — splitting the
  edge list, gathering and scatter-adding rows, slicing the stacked weights — they do with the very same
  operations on the same arrays. So both end with the same array. No finiteness of the inputs is used: only that
  sums and products of extended reals are what they are.

  * the three frames: the two kernels' by their frame certificates, the reference's by its run;
  * `preserves`: the idealization rewrote nothing, the claim is `True`;
  * `algebraic`: the kernel's run ends with its result buffer at the last boundary's contents (Proof/KernelRun.lean),
    which is the reference's last stage of the arguments (Proof/KernelValue.lean, over Proof/Blocks.lean,
    Proof/Payload.lean, Proof/Stable.lean and Proof/RefStages.lean); the reference's run ends at that stage by
    definition of the stages.
-/
import proofs.«141604_j25125558682021_1_alg».proof.Defs
import proofs.«141604_j25125558682021_1_alg».proof.Proof.Gen.Kernel
import proofs.«141604_j25125558682021_1_alg».proof.Proof.Gen.KernelIdeal
import proofs.«141604_j25125558682021_1_alg».proof.Proof.Gen.ReferenceIdeal
import proofs.«141604_j25125558682021_1_alg».proof.Proof.Gen.Pre_finite_inputs
import proofs.«141604_j25125558682021_1_alg».proof.Proof.Gen.ReferenceIdeal.Run
import proofs.«141604_j25125558682021_1_alg».proof.Proof.Gen.ReferenceIdeal.Read
import proofs.«141604_j25125558682021_1_alg».proof.Proof.PatchedKernelFrame
import proofs.«141604_j25125558682021_1_alg».proof.Proof.PatchedKernelIdealFrame
import proofs.«141604_j25125558682021_1_alg».proof.Proof.KernelRun
import proofs.«141604_j25125558682021_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_k [Cert.Kernel.Facts] [Cert.Pre_finite_inputs.Facts] : Cert.frame_Kernel :=
  fun m ρ _ => Cert.Kernel.Gen.frame m ρ

/-- The idealized kernel runs and leaves its arguments alone. -/
theorem frame_ki [Cert.KernelIdeal.Facts] [Cert.Pre_finite_inputs.Facts] : Cert.frame_KernelIdeal :=
  fun m ρ _ => Cert.KernelIdeal.Gen.frame m ρ

/-- The reference runs and leaves its arguments alone: its run, with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- From memories that agree on the seven arguments both programs end with the same array: the reference's last
    stage of the arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.ReferenceIdeal.Read.val_main_v79 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.GraphConv.Value.kernel_value m ρ c), (h c).2⟩)
      (Cert.GraphConv.Run.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v79_eq, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
